-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩

abbrev nBuf : Space → Nat
  | .hbm => 114
  | .vmem => 15
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x1, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x256, .f32⟩
  | .hbm, ⟨104, _⟩ => ⟨S850000x1, .f32⟩
  | .hbm, ⟨105, _⟩ => ⟨S850000x256, .f32⟩
  | .hbm, ⟨106, _⟩ => ⟨S850000x256, .f32⟩
  | .hbm, ⟨107, _⟩ => ⟨S_, .f32⟩
  | .hbm, ⟨108, _⟩ => ⟨S50000x256, .f32⟩
  | .hbm, ⟨109, _⟩ => ⟨S850000x1, .i32⟩
  | .hbm, ⟨110, _⟩ => ⟨S50000x256, .f32⟩
  | .hbm, ⟨111, _⟩ => ⟨S1x256, .f32⟩
  | .hbm, ⟨112, _⟩ => ⟨S50000x256, .f32⟩
  | .hbm, ⟨113, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 114
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x1, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x256, .f32⟩
  | .hbm, ⟨104, _⟩ => ⟨S850000x1, .f32⟩
  | .hbm, ⟨105, _⟩ => ⟨S850000x256, .f32⟩
  | .hbm, ⟨106, _⟩ => ⟨S850000x256, .f32⟩
  | .hbm, ⟨107, _⟩ => ⟨S_, .f32⟩
  | .hbm, ⟨108, _⟩ => ⟨S50000x256, .f32⟩
  | .hbm, ⟨109, _⟩ => ⟨S850000x1, .i32⟩
  | .hbm, ⟨110, _⟩ => ⟨S50000x256, .f32⟩
  | .hbm, ⟨111, _⟩ => ⟨S1x256, .f32⟩
  | .hbm, ⟨112, _⟩ => ⟨S50000x256, .f32⟩
  | .hbm, ⟨113, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KernelRun.lean ====
/-
  The kernel program's run with its result kept: from any launch memory every weakly fair execution of @main ends,
  nothing faulting, with the result buffer holding what the last boundary of the fold through @main's stretches of
  host operations and its three regions says it holds, and the eight argument arrays as launched.

  The fold (`W0`, …, `W11`) is the generated one: the launch memory, then each stretch of host operations applied in
  order, each region replacing its output array by what its write-backs leave. The run over the segments leaves every
  buffer of the TensorCore that is not scoped to a region at the last boundary's contents; the frame claim reads the
  arguments off that state, and here the result buffer is read off it as well.
-/
import proofs.«148581_j78683800863474_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program ends with the result buffer at the last boundary's contents and
    the arguments unchanged. -/
theorem run : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.Gcn.KernelRun

end
-- ==== Proof.Spec.lean ====
/-
  What both programs compute, as one function of the eight argument arrays, over the extended reals.

  The graph has 50000 nodes and 800000 edges `edge_index[0][q] → edge_index[1][q]`; every node gets a self-loop,
  so the source list `src` and the destination list `dst` have 850000 entries (the edge row, then 0 … 49999).
  A node's degree is the number of list positions whose destination it is, `dinv = 1/sqrt(deg)` where the degree is
  positive (else 0), and edge `q` weighs `norm q = dinv[src q] · dinv[dst q]`. One layer maps a node-feature matrix
  `H` (50000 × 256) to

      agg (H · W) b,   where (agg P b)[n, j] = (Σ_{q : dst q = n} P[src q, j] · norm q) + b[j]

  (a gather of the rows `src`, a scaling by the edge weight, a scatter-add into the rows `dst`, the bias), and the
  network is three layers with `relu` between them. The matrix product is written as its defining sum,
  `(A · B)[i, j] = Σ_{k < 256} A[i, k] · B[k, j]`; everything else is spelt with the host operations both printed
  programs apply, so that each program's stretch of host operations reads as one of these functions of its inputs.
  A negative endpoint is wrapped by +50000 before it indexes (`wrap`), as both programs do.
-/
import proofs.«148581_j78683800863474_1_alg».proof.Proof.Gen.KernelIdeal
import Idealize.ShloMosaic.PureOps.Ideal
import Idealize.ShloMosaic.Lib.ValueIdx

noncomputable section

namespace Cert.Gcn

open Idealize.ShloMosaic Cert.KernelIdeal Cert.KernelIdeal.Facts₀ Cert.KernelIdeal.Facts
open scoped BigOperators

/-- A node-feature matrix, 50000 × 256. -/
abbrev Mat := FVec Ideal S50000x256 .f32
/-- A layer's weight matrix, 256 × 256. -/
abbrev Wt := FVec Ideal S256x256 .f32
/-- A layer's bias, 256 entries. -/
abbrev Bias := FVec Ideal S256 .f32
/-- The edge array: row 0 the sources, row 1 the destinations. -/
abbrev Edges := IVec S2x800000 32
/-- A list of 850000 node numbers: one per edge, then one per self-loop. -/
abbrev Ends := IVec S850000 32
/-- One weight per edge and self-loop. -/
abbrev EdgeW := FVec Ideal S850000 .f32

/-- The node numbers 0 … 49999: the self-loops' endpoints. -/
def loops : IVec S50000 32 := iotaInDim S50000 32 0

/-- The sources: row 0 of the edge array, then the self-loops. -/
def src (e : Edges) : Ends :=
  concatenate S850000 0 [⟨S800000, shapeCast S800000 (extractStridedSlice S1x800000 ![0, 0] e slices_S2x800000_S1x800000_0_0) shapeCasts_S1x800000_S800000⟩, ⟨S50000, loops⟩] concatenates_S800000_S50000_S850000_d0

/-- The destinations: row 1 of the edge array, then the self-loops. -/
def dst (e : Edges) : Ends :=
  concatenate S850000 0 [⟨S800000, shapeCast S800000 (extractStridedSlice S1x800000 ![1, 0] e slices_S2x800000_S1x800000_1_0) shapeCasts_S1x800000_S800000⟩, ⟨S50000, loops⟩] concatenates_S800000_S50000_S850000_d0

/-- A negative node number counts from the end: +50000. -/
def wrap (v : Ends) : Ends :=
  select (cmpi .slt v (broadcastInDim S850000 ![] bcast_S_S850000 (constantI S_ 32 0#32)))
    (addi v (broadcastInDim S850000 ![] bcast_S_S850000 (constantI S_ 32 50000#32))) v

/-- A list of node numbers as a column of one-entry index vectors. -/
def col (v : Ends) : IVec S850000x1 32 :=
  broadcastInDim S850000x1 ![0] bcast_S850000_S850000x1_0 v

/-- A node's degree: the sum of a 1 per list position whose destination it is. -/
def deg (e : Edges) : FVec Ideal S50000 .f32 :=
  Host.scatterAdd (F := Ideal) scatter_S50000_S850000x1_S850000_n_0_0_1
    (broadcastInDim S50000 ![] bcast_S_S50000 (constant (F := Ideal) S_ .f32 0x00000000#32))
    (col (dst e))
    (broadcastInDim S850000 ![] bcast_S_S850000 (constant (F := Ideal) S_ .f32 0x3F800000#32))

/-- The scalar zero. -/
def zero : FVec Ideal S_ .f32 := constant (F := Ideal) S_ .f32 0x00000000#32

/-- Where the degree is positive. -/
def degPos (e : Edges) : IVec S50000 1 :=
  cmpf (F := Ideal) .ogt (deg e) (broadcastInDim S50000 ![] bcast_S_S50000 (constant (F := Ideal) S_ .f32 0x00000000#32))

/-- `1/sqrt(deg)`, node by node. -/
def degRsqrt (e : Edges) : FVec Ideal S50000 .f32 := Host.rsqrt (F := Ideal) (deg e)

/-- `r` where `p` holds, else the scalar `z`. -/
def pick (p : IVec S50000 1) (r : FVec Ideal S50000 .f32) (z : FVec Ideal S_ .f32) : FVec Ideal S50000 .f32 :=
  select p r (broadcastInDim S50000 ![] bcast_S_S50000 (id z))

/-- `1/sqrt(deg)` where the degree is positive, else 0. -/
def dinv (e : Edges) : FVec Ideal S50000 .f32 := pick (degPos e) (degRsqrt e) zero

/-- The weights of the edges `s q → d q` from a per-node factor `f`: `f[s q] · f[d q]`. -/
def edgeW (f : FVec Ideal S50000 .f32) (s d : Ends) : EdgeW :=
  mulf (F := Ideal)
    (Host.gather gather_S50000_S850000x1_S850000_n_0_n_n_0_1_1 f (col (wrap s)))
    (Host.gather gather_S50000_S850000x1_S850000_n_0_n_n_0_1_1 f (col (wrap d)))

/-- An edge's weight: `dinv` at its source times `dinv` at its destination. -/
def norm (e : Edges) : EdgeW := edgeW (dinv e) (src e) (dst e)

/-- One layer's aggregation of the projected features `P`: row `n` of the result is the sum, over the list positions
    `q` with destination `n`, of row `s q` of `P` scaled by `nrm q`, plus the bias. -/
def agg (s d : Ends) (nrm : EdgeW) (P : Mat) (b : Bias) : Mat :=
  addf (F := Ideal)
    (Host.scatterAdd (F := Ideal) scatter_S50000x256_S850000x1_S850000x256_1_0_0_1
      (broadcastInDim S50000x256 ![] bcast_S_S50000x256 (constant (F := Ideal) S_ .f32 0x00000000#32))
      (col d)
      (mulf (F := Ideal)
        (Host.gather gather_S50000x256_S850000x1_S850000x256_1_0_n_n_0_1_1256 P (col (wrap s)))
        (broadcastInDim S850000x256 ![0, 1] bcast_S850000x1_S850000x256_0_1 (broadcastInDim S850000x1 ![0] bcast_S850000_S850000x1_0 nrm))))
    (broadcastInDim S50000x256 ![0, 1] bcast_S1x256_S50000x256_0_1 (broadcastInDim S1x256 ![1] bcast_S256_S1x256_1 b))

/-- The positive part, entry by entry. -/
def relu (h : Mat) : Mat :=
  maximumf (F := Ideal) h (broadcastInDim S50000x256 ![] bcast_S_S50000x256 (constant (F := Ideal) S_ .f32 0x00000000#32))

/-- The matrix product, by its defining sum over the 256 shared coordinates. -/
def prod (A : Mat) (B : Wt) : Mat :=
  fun i => ∑ k : Fin 256, A (ValueIdx.ix2 (i 0) k) * B (ValueIdx.ix2 k (i 1))

/-- One layer: project, then aggregate over the self-looped graph. -/
def layer (e : Edges) (H : Mat) (W : Wt) (b : Bias) : Mat :=
  agg (src e) (dst e) (norm e) (prod H W) b

/-- The three-layer network. -/
def gcn (x : Mat) (e : Edges) (W1 : Wt) (b1 : Bias) (W2 : Wt) (b2 : Bias) (W3 : Wt) (b3 : Bias) : Mat :=
  layer e (relu (layer e (relu (layer e x W1 b1)) W2 b2)) W3 b3

end Cert.Gcn

end
-- ==== Proof.HostK.lean ====
/-
  What the kernel program's stretches of host operations compute, from ANY contents `V` of the buffers they start from.

  The first stretches build, from the edge array alone, the source list, the destination list, the degrees and from
  them the edge weights; they touch no other argument. Each later stretch takes a layer's projected features, gathers
  the source rows, scales them by the edge weights, scatter-adds them into the destination rows and adds the bias —
  `agg` — and, after the first two layers, a three-operation stretch takes the positive part. The endpoint lists, the
  weights and the later layers' arguments pass through a stretch untouched. Each statement is a stretch's operations
  applied one after the other to `V`, read at one buffer; the longer ones are composed from the shorter.
-/
import proofs.«148581_j78683800863474_1_alg».proof.Proof.Spec
import proofs.«148581_j78683800863474_1_alg».proof.Proof.Gen.KernelIdeal.Launch
import Idealize.ShloMosaic.Lib.StableHlo.Run

set_option maxRecDepth 8192

noncomputable section

namespace Cert.Gcn.HostK

open Idealize.ShloMosaic Idealize.ShloMosaic.TcCoe Idealize.SL.Sem Idealize.ShloMosaic.StableHlo
open Cert.Gcn
open Cert.KernelIdeal Cert.KernelIdeal.Gen Cert.KernelIdeal.Facts₀ Cert.KernelIdeal.Facts

variable (V : Valuation τ sig (Elt Ideal))

/-! ## The first stretch: the endpoint lists and what the degrees give -/

/-- The sources: row 0 of the edge array, then the self-loops. -/
theorem src0 : after hostOps0 V (Proc.devRef .tc main_v3) = src (V (Proc.devRef .tc main_arg1)) := by
  dsimp only [hostOps0]
  after_results <;> rfl
/-- The destinations: row 1 of the edge array, then the self-loops. -/
theorem dst0 : after hostOps0 V (Proc.devRef .tc main_v6) = dst (V (Proc.devRef .tc main_arg1)) := by
  dsimp only [hostOps0]
  after_results <;> rfl
/-- Where the degree is positive. -/
theorem pos0 : after hostOps0 V (Proc.devRef .tc main_v12) = degPos (V (Proc.devRef .tc main_arg1)) := by
  dsimp only [hostOps0]
  after_results_simp
  unfold degPos deg col dst loops
  rfl
/-- The reciprocal square roots of the degrees. -/
theorem rsq0 : after hostOps0 V (Proc.devRef .tc main_v13) = degRsqrt (V (Proc.devRef .tc main_arg1)) := by
  dsimp only [hostOps0]
  after_results_simp
  unfold degRsqrt deg col dst loops
  rfl
/-- The scalar the `where` falls back to. -/
theorem zero0 : after hostOps0 V (Proc.devRef .tc main_cst_2) = zero := by
  dsimp only [hostOps0]
  after_results <;> rfl

/-! ## The `where`: three operations -/

theorem where0 : after hostOps0_1 V (Proc.devRef .tc main_v14) = pick (V (Proc.devRef .tc main_v12)) (V (Proc.devRef .tc main_v13)) (V (Proc.devRef .tc main_cst_2)) := by
  dsimp only [hostOps0_1]
  after_results <;> rfl
theorem where0_keep_v3 : after hostOps0_1 V (Proc.devRef .tc main_v3) = V (Proc.devRef .tc main_v3) := by
  dsimp only [hostOps0_1]
  after_results <;> rfl
theorem where0_keep_v6 : after hostOps0_1 V (Proc.devRef .tc main_v6) = V (Proc.devRef .tc main_v6) := by
  dsimp only [hostOps0_1]
  after_results <;> rfl

/-! ## The edge weights from the per-node factor and the endpoint lists -/

theorem norm0 : after hostOps0_2 V (Proc.devRef .tc main_v29) = edgeW (V (Proc.devRef .tc main_v14)) (V (Proc.devRef .tc main_v3)) (V (Proc.devRef .tc main_v6)) := by
  dsimp only [hostOps0_2]
  after_results_simp
  unfold edgeW col wrap
  rfl

/-! ## The three first stretches together -/

/-- The sources. -/
theorem first_src : after hostOps0_2 (after hostOps0_1 (after hostOps0 V)) (Proc.devRef .tc main_v3) = src (V (Proc.devRef .tc main_arg1)) := by
  dsimp only [hostOps0_2, hostOps0_1, hostOps0]
  after_results <;> rfl
/-- The destinations. -/
theorem first_dst : after hostOps0_2 (after hostOps0_1 (after hostOps0 V)) (Proc.devRef .tc main_v6) = dst (V (Proc.devRef .tc main_arg1)) := by
  dsimp only [hostOps0_2, hostOps0_1, hostOps0]
  after_results <;> rfl
/-- The edge weights: the per-node factor is `dinv`, read at the two endpoint lists. -/
theorem first_norm : after hostOps0_2 (after hostOps0_1 (after hostOps0 V)) (Proc.devRef .tc main_v29) = norm (V (Proc.devRef .tc main_arg1)) := by
  refine (norm0 _).trans ?_
  rw [where0, where0_keep_v3, where0_keep_v6, pos0, rsq0, zero0, src0, dst0]
  rfl
theorem first_keep_arg0 : after hostOps0_2 (after hostOps0_1 (after hostOps0 V)) (Proc.devRef .tc main_arg0) = V (Proc.devRef .tc main_arg0) := by
  dsimp only [hostOps0_2, hostOps0_1, hostOps0]
  after_results <;> rfl
theorem first_keep_arg2 : after hostOps0_2 (after hostOps0_1 (after hostOps0 V)) (Proc.devRef .tc main_arg2) = V (Proc.devRef .tc main_arg2) := by
  dsimp only [hostOps0_2, hostOps0_1, hostOps0]
  after_results <;> rfl
theorem first_keep_arg3 : after hostOps0_2 (after hostOps0_1 (after hostOps0 V)) (Proc.devRef .tc main_arg3) = V (Proc.devRef .tc main_arg3) := by
  dsimp only [hostOps0_2, hostOps0_1, hostOps0]
  after_results <;> rfl
theorem first_keep_arg4 : after hostOps0_2 (after hostOps0_1 (after hostOps0 V)) (Proc.devRef .tc main_arg4) = V (Proc.devRef .tc main_arg4) := by
  dsimp only [hostOps0_2, hostOps0_1, hostOps0]
  after_results <;> rfl
theorem first_keep_arg5 : after hostOps0_2 (after hostOps0_1 (after hostOps0 V)) (Proc.devRef .tc main_arg5) = V (Proc.devRef .tc main_arg5) := by
  dsimp only [hostOps0_2, hostOps0_1, hostOps0]
  after_results <;> rfl
theorem first_keep_arg6 : after hostOps0_2 (after hostOps0_1 (after hostOps0 V)) (Proc.devRef .tc main_arg6) = V (Proc.devRef .tc main_arg6) := by
  dsimp only [hostOps0_2, hostOps0_1, hostOps0]
  after_results <;> rfl
theorem first_keep_arg7 : after hostOps0_2 (after hostOps0_1 (after hostOps0 V)) (Proc.devRef .tc main_arg7) = V (Proc.devRef .tc main_arg7) := by
  dsimp only [hostOps0_2, hostOps0_1, hostOps0]
  after_results <;> rfl

/-! ## The first layer's aggregation and positive part -/

theorem agg1 : after hostOps1 V (Proc.devRef .tc main_v46)
    = agg (V (Proc.devRef .tc main_v3)) (V (Proc.devRef .tc main_v6)) (V (Proc.devRef .tc main_v29)) (V (Proc.devRef .tc main_v30)) (V (Proc.devRef .tc main_arg3)) := by
  dsimp only [hostOps1]
  after_results_simp
  unfold agg col wrap
  rfl
theorem relu1 : after hostOps1_1 V (Proc.devRef .tc main_v47) = relu (V (Proc.devRef .tc main_v46)) := by
  dsimp only [hostOps1_1]
  after_results <;> rfl
theorem layer1 : after hostOps1_1 (after hostOps1 V) (Proc.devRef .tc main_v47)
    = relu (agg (V (Proc.devRef .tc main_v3)) (V (Proc.devRef .tc main_v6)) (V (Proc.devRef .tc main_v29)) (V (Proc.devRef .tc main_v30)) (V (Proc.devRef .tc main_arg3))) :=
  (relu1 _).trans (congrArg relu (agg1 V))
theorem layer1_keep_v3 : after hostOps1_1 (after hostOps1 V) (Proc.devRef .tc main_v3) = V (Proc.devRef .tc main_v3) := by
  dsimp only [hostOps1_1, hostOps1]
  after_results <;> rfl
theorem layer1_keep_v6 : after hostOps1_1 (after hostOps1 V) (Proc.devRef .tc main_v6) = V (Proc.devRef .tc main_v6) := by
  dsimp only [hostOps1_1, hostOps1]
  after_results <;> rfl
theorem layer1_keep_v29 : after hostOps1_1 (after hostOps1 V) (Proc.devRef .tc main_v29) = V (Proc.devRef .tc main_v29) := by
  dsimp only [hostOps1_1, hostOps1]
  after_results <;> rfl
theorem layer1_keep_arg4 : after hostOps1_1 (after hostOps1 V) (Proc.devRef .tc main_arg4) = V (Proc.devRef .tc main_arg4) := by
  dsimp only [hostOps1_1, hostOps1]
  after_results <;> rfl
theorem layer1_keep_arg5 : after hostOps1_1 (after hostOps1 V) (Proc.devRef .tc main_arg5) = V (Proc.devRef .tc main_arg5) := by
  dsimp only [hostOps1_1, hostOps1]
  after_results <;> rfl
theorem layer1_keep_arg6 : after hostOps1_1 (after hostOps1 V) (Proc.devRef .tc main_arg6) = V (Proc.devRef .tc main_arg6) := by
  dsimp only [hostOps1_1, hostOps1]
  after_results <;> rfl
theorem layer1_keep_arg7 : after hostOps1_1 (after hostOps1 V) (Proc.devRef .tc main_arg7) = V (Proc.devRef .tc main_arg7) := by
  dsimp only [hostOps1_1, hostOps1]
  after_results <;> rfl

/-! ## The second layer's -/

theorem agg2 : after hostOps2 V (Proc.devRef .tc main_v64)
    = agg (V (Proc.devRef .tc main_v3)) (V (Proc.devRef .tc main_v6)) (V (Proc.devRef .tc main_v29)) (V (Proc.devRef .tc main_v48)) (V (Proc.devRef .tc main_arg5)) := by
  dsimp only [hostOps2]
  after_results_simp
  unfold agg col wrap
  rfl
theorem relu2 : after hostOps2_1 V (Proc.devRef .tc main_v65) = relu (V (Proc.devRef .tc main_v64)) := by
  dsimp only [hostOps2_1]
  after_results <;> rfl
theorem layer2 : after hostOps2_1 (after hostOps2 V) (Proc.devRef .tc main_v65)
    = relu (agg (V (Proc.devRef .tc main_v3)) (V (Proc.devRef .tc main_v6)) (V (Proc.devRef .tc main_v29)) (V (Proc.devRef .tc main_v48)) (V (Proc.devRef .tc main_arg5))) :=
  (relu2 _).trans (congrArg relu (agg2 V))
theorem layer2_keep_v3 : after hostOps2_1 (after hostOps2 V) (Proc.devRef .tc main_v3) = V (Proc.devRef .tc main_v3) := by
  dsimp only [hostOps2_1, hostOps2]
  after_results <;> rfl
theorem layer2_keep_v6 : after hostOps2_1 (after hostOps2 V) (Proc.devRef .tc main_v6) = V (Proc.devRef .tc main_v6) := by
  dsimp only [hostOps2_1, hostOps2]
  after_results <;> rfl
theorem layer2_keep_v29 : after hostOps2_1 (after hostOps2 V) (Proc.devRef .tc main_v29) = V (Proc.devRef .tc main_v29) := by
  dsimp only [hostOps2_1, hostOps2]
  after_results <;> rfl
theorem layer2_keep_arg6 : after hostOps2_1 (after hostOps2 V) (Proc.devRef .tc main_arg6) = V (Proc.devRef .tc main_arg6) := by
  dsimp only [hostOps2_1, hostOps2]
  after_results <;> rfl
theorem layer2_keep_arg7 : after hostOps2_1 (after hostOps2 V) (Proc.devRef .tc main_arg7) = V (Proc.devRef .tc main_arg7) := by
  dsimp only [hostOps2_1, hostOps2]
  after_results <;> rfl

/-! ## The third layer's aggregation: the result -/

theorem layer3 : after hostOps3 V (Proc.devRef .tc main_v82)
    = agg (V (Proc.devRef .tc main_v3)) (V (Proc.devRef .tc main_v6)) (V (Proc.devRef .tc main_v29)) (V (Proc.devRef .tc main_v66)) (V (Proc.devRef .tc main_arg7)) := by
  dsimp only [hostOps3]
  after_results_simp
  unfold agg col wrap
  rfl

end Cert.Gcn.HostK

end
-- ==== Proof.BlockProduct.lean ====
/-
  A kernel body at one grid point: the 2000 × 256 row block `x` times the whole 256 × 256 weight `w`.

  Over the extended reals a change of float format is the identity, so the body's casts to bf16 vanish, and a matrix
  unit's product into the zero accumulator is the plain sum: entry `(p, q)` of the stored block is
  `Σ_{k < 256} x[p, k] · w[k, q]`. The second and third bodies first cast the block to its own shape, which changes
  nothing.
-/
import proofs.«148581_j78683800863474_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Gcn.Block

open Idealize.ShloMosaic Idealize.ShloMosaic.ValueIdx Cert.KernelIdeal Cert.KernelIdeal.Gen Cert.KernelIdeal.Facts₀ Cert.KernelIdeal.Facts
open scoped BigOperators

/-! ## Which entries of the two operands the block product pairs -/

/-- The left operand is read in the output's row … -/
theorem lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … at the summation coordinate; -/
theorem lhs_col (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- the right operand at the summation coordinate … -/
theorem rhs_row (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … in the output's column. -/
theorem rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix unit's product of a block and a weight into the zero accumulator, entry by entry: the sum over the
    256 shared coordinates. The operands' float formats play no part over the extended reals. -/
theorem matmul_zero_apply {φ₁ φ₂ : FTy} (x : FVec Ideal S2000x256 φ₁) (w : FVec Ideal S256x256 φ₂) (j : S2000x256.Idx) :
    matmul (F := Ideal) dot_S2000x256_S256x256_S2000x256_1_0_0_1_n_n none x w (constant (F := Ideal) S2000x256 .f32 0x00000000#32) j
      = ∑ k : Fin 256, x (ix2 (j 0) k) * w (ix2 k (j 1)) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx j ((contrEquiv1 dot_S2000x256_S256x256_S2000x256_1_0_0_1_n_n 256 rfl rfl).symm k) = ix2 (j 0) k := funext fun a => Fin.ext (by
    match a with
    | ⟨0, _⟩ => exact lhs_row _ _
    | ⟨1, _⟩ => exact (lhs_col _ _).trans hk)
  have er : dot_S2000x256_S256x256_S2000x256_1_0_0_1_n_n.rhsIdx j ((contrEquiv1 dot_S2000x256_S256x256_S2000x256_1_0_0_1_n_n 256 rfl rfl).symm k) = ix2 k (j 1) := funext fun a => Fin.ext (by
    match a with
    | ⟨0, _⟩ => exact (rhs_row _ _).trans hk
    | ⟨1, _⟩ => exact rhs_col _ _)
  rw [el, er]
  rfl

/-! ## The three bodies -/

/-- The first layer's body: block times weight. -/
theorem pay0_apply (x : Vec Ideal S2000x256 .f32) (w : Vec Ideal S256x256 .f32) (j : S2000x256.Idx) :
    k0_pay1 (F := Ideal) x w j = ∑ k : Fin 256, x (ix2 (j 0) k) * w (ix2 k (j 1)) := by
  unfold k0_pay1
  exact matmul_zero_apply _ _ j

/-- The second layer's body: the same, after a cast of the block to its own shape. -/
theorem pay1_apply (x : Vec Ideal S2000x256 .f32) (w : Vec Ideal S256x256 .f32) (j : S2000x256.Idx) :
    k1_pay1 (F := Ideal) x w j = ∑ k : Fin 256, x (ix2 (j 0) k) * w (ix2 k (j 1)) := by
  unfold k1_pay1
  rw [shapeCast_self]
  exact matmul_zero_apply _ _ j

/-- The third layer's body: as the second. -/
theorem pay2_apply (x : Vec Ideal S2000x256 .f32) (w : Vec Ideal S256x256 .f32) (j : S2000x256.Idx) :
    k2_pay1 (F := Ideal) x w j = ∑ k : Fin 256, x (ix2 (j 0) k) * w (ix2 k (j 1)) := by
  unfold k2_pay1
  rw [shapeCast_self]
  exact matmul_zero_apply _ _ j

end Cert.Gcn.Block

end
-- ==== Proof.Region0.lean ====
/-
  Region 0 of the kernel program: the pipelined product of the 50000 × 256 array in `main_arg0` with the 256 × 256 weight
  in `main_arg2`, 25 grid points, point `t` taking rows 2000·t … 2000·t + 1999.

  At point `t` the left window's block is rows 2000·t … of the array and the weight's block is the whole weight, so
  the stored block — block times weight — is rows 2000·t … of the product of the two whole arrays. The 25 row
  blocks cover the output array, so after the region it holds that product, entry by entry:
  `out[i, j] = Σ_{k < 256} lhs[i, k] · rhs[k, j]`.
-/
import proofs.«148581_j78683800863474_1_alg».proof.Proof.Gen.KernelIdeal.Frame
import proofs.«148581_j78683800863474_1_alg».proof.Proof.Spec
import proofs.«148581_j78683800863474_1_alg».proof.Proof.BlockProduct

set_option maxRecDepth 16384

noncomputable section

namespace Cert.Gcn.Region0

open Idealize.ShloMosaic Idealize.ShloMosaic.TcCoe Idealize.ShloMosaic.ValueIdx Idealize.SL.Sem
open Cert.KernelIdeal Cert.KernelIdeal.Gen Cert.KernelIdeal.Facts₀ Cert.KernelIdeal.Facts
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The three windows' block numbers at point `t`: the row block `t` of the left operand and of the output, the one
    block of the weight. -/
theorem block_numbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a stored block against one entry of the product of two whole arrays: equal as soon as the block's
    row is the array's row and the weight block is the weight, coordinate by coordinate. -/
theorem entry_eq (A : Mat) (B : Wt) (x : Vec Ideal S2000x256 .f32) (w : Vec Ideal S256x256 .f32)
    (j : S2000x256.Idx) (i : S50000x256.Idx)
    (hx : ∀ k : Fin 256, x (ix2 (j 0) k) = A (ix2 (i 0) k)) (hw : ∀ k : Fin 256, w (ix2 k (j 1)) = B (ix2 k (i 1))) :
    k0_pay1 (F := Ideal) x w j = prod A B i := by
  rw [Block.pay0_apply]
  unfold prod
  exact Finset.sum_congr rfl fun k _ => by rw [hx k, hw k]

/-- WHAT POINT `t` WRITES BACK is block `t` of the product of the two arrays as the region finds them. -/
theorem flushed_eq (c : Dev nD) (t : Fin cfg0.N) :
    (dat0 (F := Ideal) V c).flushed 2 t
      = ((cfg0.win 2).blk t).view.read (Elt Ideal) (prod (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S2000x256) origin, View.ld_unit_zero (S := S256x256) origin]
  obtain ⟨e0, e1, e2, e3, e4, e5⟩ := block_numbers t
  funext j
  show k0_pay1 (F := Ideal) (iblk0 V c 0 t) (iblk0 V c 1 t) j = prod (V c main_arg0) (V c main_arg2) (((cfg0.win 2).blk t).view.emb j)
  refine entry_eq (V c main_arg0) (V c main_arg2) (iblk0 V c 0 t) (iblk0 V c 1 t) j (((cfg0.win 2).blk t).view.emb j) ?_ ?_
  · intro k
    show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · intro k
    show V c main_arg2 (((cfg0.win 1).blk t).view.emb (ix2 k (j 1))) = V c main_arg2 (ix2 k ((((cfg0.win 2).blk t).view.emb j) 1))
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every entry of the output array is in the block of the point that takes its row: point `row / 2000`. -/
theorem cover (i : S50000x256.Idx) :
    ∃ t : Fin cfg0.N, (cfg0.win 2).flush t = true ∧ i ∈ ((cfg0.win 2).blk t).view.set := by
  have hN : grid0.N = 25 := N_0
  have hi0 : (i 0).val < 50000 := (i 0).isLt
  have hi1 : (i 1).val < 256 := (i 1).isLt
  have ht : (i 0).val / 2000 < cfg0.N := by show (i 0).val / 2000 < grid0.N; omega
  refine ⟨⟨(i 0).val / 2000, ht⟩, flush0_2 _, ?_⟩
  obtain ⟨e0, e1, e2, e3, e4, e5⟩ := block_numbers ⟨(i 0).val / 2000, ht⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e5]; omega

/-- THE OUTPUT ARRAY after the region: the product of the two arrays the region was entered with. -/
theorem final (c : Dev nD) :
    (dat0 (F := Ideal) V c).arrAt 2 cfg0.N = prod (V c main_arg0) (V c main_arg2) :=
  (dat0 (F := Ideal) V c).arrAt_eq_of_cover 2 (prod (V c main_arg0) (V c main_arg2)) (fun t _ => flushed_eq V c t) cover

end Cert.Gcn.Region0

end
-- ==== Proof.Region1.lean ====
/-
  Region 1 of the kernel program: the pipelined product of the 50000 × 256 array in `main_v47` with the 256 × 256 weight
  in `main_arg4`, 25 grid points, point `t` taking rows 2000·t … 2000·t + 1999.

  At point `t` the left window's block is rows 2000·t … of the array and the weight's block is the whole weight, so
  the stored block — block times weight — is rows 2000·t … of the product of the two whole arrays. The 25 row
  blocks cover the output array, so after the region it holds that product, entry by entry:
  `out[i, j] = Σ_{k < 256} lhs[i, k] · rhs[k, j]`.
-/
import proofs.«148581_j78683800863474_1_alg».proof.Proof.Gen.KernelIdeal.Frame
import proofs.«148581_j78683800863474_1_alg».proof.Proof.Spec
import proofs.«148581_j78683800863474_1_alg».proof.Proof.BlockProduct

set_option maxRecDepth 16384

noncomputable section

namespace Cert.Gcn.Region1

open Idealize.ShloMosaic Idealize.ShloMosaic.TcCoe Idealize.ShloMosaic.ValueIdx Idealize.SL.Sem
open Cert.KernelIdeal Cert.KernelIdeal.Gen Cert.KernelIdeal.Facts₀ Cert.KernelIdeal.Facts
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The three windows' block numbers at point `t`: the row block `t` of the left operand and of the output, the one
    block of the weight. -/
theorem block_numbers : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a stored block against one entry of the product of two whole arrays: equal as soon as the block's
    row is the array's row and the weight block is the weight, coordinate by coordinate. -/
theorem entry_eq (A : Mat) (B : Wt) (x : Vec Ideal S2000x256 .f32) (w : Vec Ideal S256x256 .f32)
    (j : S2000x256.Idx) (i : S50000x256.Idx)
    (hx : ∀ k : Fin 256, x (ix2 (j 0) k) = A (ix2 (i 0) k)) (hw : ∀ k : Fin 256, w (ix2 k (j 1)) = B (ix2 k (i 1))) :
    k1_pay1 (F := Ideal) x w j = prod A B i := by
  rw [Block.pay1_apply]
  unfold prod
  exact Finset.sum_congr rfl fun k _ => by rw [hx k, hw k]

/-- WHAT POINT `t` WRITES BACK is block `t` of the product of the two arrays as the region finds them. -/
theorem flushed_eq (c : Dev nD) (t : Fin cfg1.N) :
    (dat1 (F := Ideal) V c).flushed 2 t
      = ((cfg1.win 2).blk t).view.read (Elt Ideal) (prod (V c main_v47) (V c main_arg4)) := by
  show (cfg1.win 2).cut (grid1.coords t) ((dat1 (F := Ideal) V c).after 2 t) = _
  rw [after1_2]
  unfold out1_2
  rw [View.canon_unit_zero origin]
  simp only [View.ld_unit_zero (S := S2000x256) origin, View.ld_unit_zero (S := S256x256) origin]
  obtain ⟨e0, e1, e2, e3, e4, e5⟩ := block_numbers t
  funext j
  show k1_pay1 (F := Ideal) (iblk1 V c 0 t) (iblk1 V c 1 t) j = prod (V c main_v47) (V c main_arg4) (((cfg1.win 2).blk t).view.emb j)
  refine entry_eq (V c main_v47) (V c main_arg4) (iblk1 V c 0 t) (iblk1 V c 1 t) j (((cfg1.win 2).blk t).view.emb j) ?_ ?_
  · intro k
    show V c main_v47 (((cfg1.win 0).blk t).view.emb (ix2 (j 0) k)) = V c main_v47 (ix2 ((((cfg1.win 2).blk t).view.emb j) 0) k)
    refine congrArg (V c main_v47) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  · intro k
    show V c main_arg4 (((cfg1.win 1).blk t).view.emb (ix2 k (j 1))) = V c main_arg4 (ix2 k ((((cfg1.win 2).blk t).view.emb j) 1))
    refine congrArg (V c main_arg4) ?_
    funext a; apply Fin.ext
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega

/-- An index of the output array is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v48).slice (win1_2.rect t)).set ↔ _
  rw [View.set_slice_whole, Rect.mem_set_unit]
  exact Iff.rfl

/-- Every entry of the output array is in the block of the point that takes its row: point `row / 2000`. -/
theorem cover (i : S50000x256.Idx) :
    ∃ t : Fin cfg1.N, (cfg1.win 2).flush t = true ∧ i ∈ ((cfg1.win 2).blk t).view.set := by
  have hN : grid1.N = 25 := N_1
  have hi0 : (i 0).val < 50000 := (i 0).isLt
  have hi1 : (i 1).val < 256 := (i 1).isLt
  have ht : (i 0).val / 2000 < cfg1.N := by show (i 0).val / 2000 < grid1.N; omega
  refine ⟨⟨(i 0).val / 2000, ht⟩, flush1_2 _, ?_⟩
  obtain ⟨e0, e1, e2, e3, e4, e5⟩ := block_numbers ⟨(i 0).val / 2000, ht⟩
  rw [mem_blk]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 256 ≤ (i 1).val ∧ (i 1).val < win1_2.index ⟨(i 0).val / 2000, ht⟩ (1 : Fin 2) * 256 + 256
    rw [e5]; omega

/-- THE OUTPUT ARRAY after the region: the product of the two arrays the region was entered with. -/
theorem final (c : Dev nD) :
    (dat1 (F := Ideal) V c).arrAt 2 cfg1.N = prod (V c main_v47) (V c main_arg4) :=
  (dat1 (F := Ideal) V c).arrAt_eq_of_cover 2 (prod (V c main_v47) (V c main_arg4)) (fun t _ => flushed_eq V c t) cover

end Cert.Gcn.Region1

end
-- ==== Proof.Region2.lean ====
/-
  Region 2 of the kernel program: the pipelined product of the 50000 × 256 array in `main_v65` with the 256 × 256 weight
  in `main_arg6`, 25 grid points, point `t` taking rows 2000·t … 2000·t + 1999.

  At point `t` the left window's block is rows 2000·t … of the array and the weight's block is the whole weight, so
  the stored block — block times weight — is rows 2000·t … of the product of the two whole arrays. The 25 row
  blocks cover the output array, so after the region it holds that product, entry by entry:
  `out[i, j] = Σ_{k < 256} lhs[i, k] · rhs[k, j]`.
-/
import proofs.«148581_j78683800863474_1_alg».proof.Proof.Gen.KernelIdeal.Frame
import proofs.«148581_j78683800863474_1_alg».proof.Proof.Spec
import proofs.«148581_j78683800863474_1_alg».proof.Proof.BlockProduct

set_option maxRecDepth 16384

noncomputable section

namespace Cert.Gcn.Region2

open Idealize.ShloMosaic Idealize.ShloMosaic.TcCoe Idealize.ShloMosaic.ValueIdx Idealize.SL.Sem
open Cert.KernelIdeal Cert.KernelIdeal.Gen Cert.KernelIdeal.Facts₀ Cert.KernelIdeal.Facts
open Idealize.ShloMosaic.Pipeline (Dat)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The three windows' block numbers at point `t`: the row block `t` of the left operand and of the output, the one
    block of the weight. -/
theorem block_numbers : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a stored block against one entry of the product of two whole arrays: equal as soon as the block's
    row is the array's row and the weight block is the weight, coordinate by coordinate. -/
theorem entry_eq (A : Mat) (B : Wt) (x : Vec Ideal S2000x256 .f32) (w : Vec Ideal S256x256 .f32)
    (j : S2000x256.Idx) (i : S50000x256.Idx)
    (hx : ∀ k : Fin 256, x (ix2 (j 0) k) = A (ix2 (i 0) k)) (hw : ∀ k : Fin 256, w (ix2 k (j 1)) = B (ix2 k (i 1))) :
    k2_pay1 (F := Ideal) x w j = prod A B i := by
  rw [Block.pay2_apply]
  unfold prod
  exact Finset.sum_congr rfl fun k _ => by rw [hx k, hw k]

/-- WHAT POINT `t` WRITES BACK is block `t` of the product of the two arrays as the region finds them. -/
theorem flushed_eq (c : Dev nD) (t : Fin cfg2.N) :
    (dat2 (F := Ideal) V c).flushed 2 t
      = ((cfg2.win 2).blk t).view.read (Elt Ideal) (prod (V c main_v65) (V c main_arg6)) := by
  show (cfg2.win 2).cut (grid2.coords t) ((dat2 (F := Ideal) V c).after 2 t) = _
  rw [after2_2]
  unfold out2_2
  rw [View.canon_unit_zero origin]
  simp only [View.ld_unit_zero (S := S2000x256) origin, View.ld_unit_zero (S := S256x256) origin]
  obtain ⟨e0, e1, e2, e3, e4, e5⟩ := block_numbers t
  funext j
  show k2_pay1 (F := Ideal) (iblk2 V c 0 t) (iblk2 V c 1 t) j = prod (V c main_v65) (V c main_arg6) (((cfg2.win 2).blk t).view.emb j)
  refine entry_eq (V c main_v65) (V c main_arg6) (iblk2 V c 0 t) (iblk2 V c 1 t) j (((cfg2.win 2).blk t).view.emb j) ?_ ?_
  · intro k
    show V c main_v65 (((cfg2.win 0).blk t).view.emb (ix2 (j 0) k)) = V c main_v65 (ix2 ((((cfg2.win 2).blk t).view.emb j) 0) k)
    refine congrArg (V c main_v65) ?_
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  · intro k
    show V c main_arg6 (((cfg2.win 1).blk t).view.emb (ix2 k (j 1))) = V c main_arg6 (ix2 k ((((cfg2.win 2).blk t).view.emb j) 1))
    refine congrArg (V c main_arg6) ?_
    funext a; apply Fin.ext
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega

/-- An index of the output array is in point `t`'s block iff each coordinate is in the block's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v66).slice (win2_2.rect t)).set ↔ _
  rw [View.set_slice_whole, Rect.mem_set_unit]
  exact Iff.rfl

/-- Every entry of the output array is in the block of the point that takes its row: point `row / 2000`. -/
theorem cover (i : S50000x256.Idx) :
    ∃ t : Fin cfg2.N, (cfg2.win 2).flush t = true ∧ i ∈ ((cfg2.win 2).blk t).view.set := by
  have hN : grid2.N = 25 := N_2
  have hi0 : (i 0).val < 50000 := (i 0).isLt
  have hi1 : (i 1).val < 256 := (i 1).isLt
  have ht : (i 0).val / 2000 < cfg2.N := by show (i 0).val / 2000 < grid2.N; omega
  refine ⟨⟨(i 0).val / 2000, ht⟩, flush2_2 _, ?_⟩
  obtain ⟨e0, e1, e2, e3, e4, e5⟩ := block_numbers ⟨(i 0).val / 2000, ht⟩
  rw [mem_blk]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 256 ≤ (i 1).val ∧ (i 1).val < win2_2.index ⟨(i 0).val / 2000, ht⟩ (1 : Fin 2) * 256 + 256
    rw [e5]; omega

/-- THE OUTPUT ARRAY after the region: the product of the two arrays the region was entered with. -/
theorem final (c : Dev nD) :
    (dat2 (F := Ideal) V c).arrAt 2 cfg2.N = prod (V c main_v65) (V c main_arg6) :=
  (dat2 (F := Ideal) V c).arrAt_eq_of_cover 2 (prod (V c main_v65) (V c main_arg6)) (fun t _ => flushed_eq V c t) cover

end Cert.Gcn.Region2

end
-- ==== Proof.KernelValue.lean ====
/-
  The kernel program's result buffer at its last boundary is the three-layer network of its launch arguments.

  Boundary by boundary through @main: the first stretches leave the source list, the destination list and the edge
  weights, functions of the edge array alone, and every other argument as launched; each region leaves the product of
  the two arrays it was entered with in its output array and touches nothing else that is read later; each later stretch aggregates
  the product over the self-looped graph, adds the bias and (twice) takes the positive part, and carries the lists, the
  weights and the remaining arguments on. Composed, the result buffer holds `gcn` of the eight arguments.
-/
import proofs.«148581_j78683800863474_1_alg».proof.Proof.Spec
import proofs.«148581_j78683800863474_1_alg».proof.Proof.HostK
import proofs.«148581_j78683800863474_1_alg».proof.Proof.Gen.KernelIdeal.Frame
import proofs.«148581_j78683800863474_1_alg».proof.Proof.Region0
import proofs.«148581_j78683800863474_1_alg».proof.Proof.Region1
import proofs.«148581_j78683800863474_1_alg».proof.Proof.Region2

set_option maxRecDepth 8192

noncomputable section

namespace Cert.Gcn.KernelValue

open Idealize.ShloMosaic Idealize.ShloMosaic.TcCoe Idealize.SL.Sem Idealize.ShloMosaic.StableHlo
open Cert.Gcn
open Cert.KernelIdeal Cert.KernelIdeal.Gen

variable (m : (ℓ : Loc nD τ sig) → Buf (Elt Ideal) ℓ) (ρ : Dev nD → PrngReg)

set_option maxHeartbeats 1000000 in
/-- The result buffer at the last boundary: the network of the launch arguments. -/
theorem result (c : Dev nD) :
    W11 m ρ c (Proc.devRef .tc main_v82)
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  -- before the first product: the endpoint lists, the weights, the untouched arguments
  have h3_v3 : W3 m ρ c (Proc.devRef .tc main_v3) = src (m ((c.tc : Thread nD τ).loc main_arg1)) := HostK.first_src (W0 m ρ c)
  have h3_v6 : W3 m ρ c (Proc.devRef .tc main_v6) = dst (m ((c.tc : Thread nD τ).loc main_arg1)) := HostK.first_dst (W0 m ρ c)
  have h3_v29 : W3 m ρ c (Proc.devRef .tc main_v29) = norm (m ((c.tc : Thread nD τ).loc main_arg1)) := HostK.first_norm (W0 m ρ c)
  have h3_arg0 : W3 m ρ c (Proc.devRef .tc main_arg0) = m ((c.tc : Thread nD τ).loc main_arg0) := HostK.first_keep_arg0 (W0 m ρ c)
  have h3_arg2 : W3 m ρ c (Proc.devRef .tc main_arg2) = m ((c.tc : Thread nD τ).loc main_arg2) := HostK.first_keep_arg2 (W0 m ρ c)
  have h3_arg3 : W3 m ρ c (Proc.devRef .tc main_arg3) = m ((c.tc : Thread nD τ).loc main_arg3) := HostK.first_keep_arg3 (W0 m ρ c)
  have h3_arg4 : W3 m ρ c (Proc.devRef .tc main_arg4) = m ((c.tc : Thread nD τ).loc main_arg4) := HostK.first_keep_arg4 (W0 m ρ c)
  have h3_arg5 : W3 m ρ c (Proc.devRef .tc main_arg5) = m ((c.tc : Thread nD τ).loc main_arg5) := HostK.first_keep_arg5 (W0 m ρ c)
  have h3_arg6 : W3 m ρ c (Proc.devRef .tc main_arg6) = m ((c.tc : Thread nD τ).loc main_arg6) := HostK.first_keep_arg6 (W0 m ρ c)
  have h3_arg7 : W3 m ρ c (Proc.devRef .tc main_arg7) = m ((c.tc : Thread nD τ).loc main_arg7) := HostK.first_keep_arg7 (W0 m ρ c)
  -- the first product
  have h4_v30 : W4 m ρ c (Proc.devRef .tc main_v30) = prod (m ((c.tc : Thread nD τ).loc main_arg0)) (m ((c.tc : Thread nD τ).loc main_arg2)) :=
    (W4_arr m ρ c 2).trans ((Region0.final (V3 m ρ) c).trans (congrArg₂ prod h3_arg0 h3_arg2))
  have h4_v3 : W4 m ρ c (Proc.devRef .tc main_v3) = src (m ((c.tc : Thread nD τ).loc main_arg1)) := (W4_of_ne m ρ c main_v3 (by decide)).trans h3_v3
  have h4_v6 : W4 m ρ c (Proc.devRef .tc main_v6) = dst (m ((c.tc : Thread nD τ).loc main_arg1)) := (W4_of_ne m ρ c main_v6 (by decide)).trans h3_v6
  have h4_v29 : W4 m ρ c (Proc.devRef .tc main_v29) = norm (m ((c.tc : Thread nD τ).loc main_arg1)) := (W4_of_ne m ρ c main_v29 (by decide)).trans h3_v29
  have h4_arg3 : W4 m ρ c (Proc.devRef .tc main_arg3) = m ((c.tc : Thread nD τ).loc main_arg3) := (W4_of_ne m ρ c main_arg3 (by decide)).trans h3_arg3
  have h4_arg4 : W4 m ρ c (Proc.devRef .tc main_arg4) = m ((c.tc : Thread nD τ).loc main_arg4) := (W4_of_ne m ρ c main_arg4 (by decide)).trans h3_arg4
  have h4_arg5 : W4 m ρ c (Proc.devRef .tc main_arg5) = m ((c.tc : Thread nD τ).loc main_arg5) := (W4_of_ne m ρ c main_arg5 (by decide)).trans h3_arg5
  have h4_arg6 : W4 m ρ c (Proc.devRef .tc main_arg6) = m ((c.tc : Thread nD τ).loc main_arg6) := (W4_of_ne m ρ c main_arg6 (by decide)).trans h3_arg6
  have h4_arg7 : W4 m ρ c (Proc.devRef .tc main_arg7) = m ((c.tc : Thread nD τ).loc main_arg7) := (W4_of_ne m ρ c main_arg7 (by decide)).trans h3_arg7
  -- the first layer's aggregation and positive part
  have h6_v47 : W6 m ρ c (Proc.devRef .tc main_v47) = relu (agg (src (m ((c.tc : Thread nD τ).loc main_arg1))) (dst (m ((c.tc : Thread nD τ).loc main_arg1))) (norm (m ((c.tc : Thread nD τ).loc main_arg1))) (prod (m ((c.tc : Thread nD τ).loc main_arg0)) (m ((c.tc : Thread nD τ).loc main_arg2))) (m ((c.tc : Thread nD τ).loc main_arg3))) :=
    (HostK.layer1 (W4 m ρ c)).trans (by rw [h4_v3, h4_v6, h4_v29, h4_v30, h4_arg3])
  have h6_v3 : W6 m ρ c (Proc.devRef .tc main_v3) = src (m ((c.tc : Thread nD τ).loc main_arg1)) := (HostK.layer1_keep_v3 (W4 m ρ c)).trans h4_v3
  have h6_v6 : W6 m ρ c (Proc.devRef .tc main_v6) = dst (m ((c.tc : Thread nD τ).loc main_arg1)) := (HostK.layer1_keep_v6 (W4 m ρ c)).trans h4_v6
  have h6_v29 : W6 m ρ c (Proc.devRef .tc main_v29) = norm (m ((c.tc : Thread nD τ).loc main_arg1)) := (HostK.layer1_keep_v29 (W4 m ρ c)).trans h4_v29
  have h6_arg4 : W6 m ρ c (Proc.devRef .tc main_arg4) = m ((c.tc : Thread nD τ).loc main_arg4) := (HostK.layer1_keep_arg4 (W4 m ρ c)).trans h4_arg4
  have h6_arg5 : W6 m ρ c (Proc.devRef .tc main_arg5) = m ((c.tc : Thread nD τ).loc main_arg5) := (HostK.layer1_keep_arg5 (W4 m ρ c)).trans h4_arg5
  have h6_arg6 : W6 m ρ c (Proc.devRef .tc main_arg6) = m ((c.tc : Thread nD τ).loc main_arg6) := (HostK.layer1_keep_arg6 (W4 m ρ c)).trans h4_arg6
  have h6_arg7 : W6 m ρ c (Proc.devRef .tc main_arg7) = m ((c.tc : Thread nD τ).loc main_arg7) := (HostK.layer1_keep_arg7 (W4 m ρ c)).trans h4_arg7
  -- the second product
  have h7_v48 : W7 m ρ c (Proc.devRef .tc main_v48) = prod (relu (agg (src (m ((c.tc : Thread nD τ).loc main_arg1))) (dst (m ((c.tc : Thread nD τ).loc main_arg1))) (norm (m ((c.tc : Thread nD τ).loc main_arg1))) (prod (m ((c.tc : Thread nD τ).loc main_arg0)) (m ((c.tc : Thread nD τ).loc main_arg2))) (m ((c.tc : Thread nD τ).loc main_arg3)))) (m ((c.tc : Thread nD τ).loc main_arg4)) :=
    (W7_arr m ρ c 2).trans ((Region1.final (V6 m ρ) c).trans (congrArg₂ prod h6_v47 h6_arg4))
  have h7_v3 : W7 m ρ c (Proc.devRef .tc main_v3) = src (m ((c.tc : Thread nD τ).loc main_arg1)) := (W7_of_ne m ρ c main_v3 (by decide)).trans h6_v3
  have h7_v6 : W7 m ρ c (Proc.devRef .tc main_v6) = dst (m ((c.tc : Thread nD τ).loc main_arg1)) := (W7_of_ne m ρ c main_v6 (by decide)).trans h6_v6
  have h7_v29 : W7 m ρ c (Proc.devRef .tc main_v29) = norm (m ((c.tc : Thread nD τ).loc main_arg1)) := (W7_of_ne m ρ c main_v29 (by decide)).trans h6_v29
  have h7_arg5 : W7 m ρ c (Proc.devRef .tc main_arg5) = m ((c.tc : Thread nD τ).loc main_arg5) := (W7_of_ne m ρ c main_arg5 (by decide)).trans h6_arg5
  have h7_arg6 : W7 m ρ c (Proc.devRef .tc main_arg6) = m ((c.tc : Thread nD τ).loc main_arg6) := (W7_of_ne m ρ c main_arg6 (by decide)).trans h6_arg6
  have h7_arg7 : W7 m ρ c (Proc.devRef .tc main_arg7) = m ((c.tc : Thread nD τ).loc main_arg7) := (W7_of_ne m ρ c main_arg7 (by decide)).trans h6_arg7
  -- the second layer's
  have h9_v65 : W9 m ρ c (Proc.devRef .tc main_v65) = relu (agg (src (m ((c.tc : Thread nD τ).loc main_arg1))) (dst (m ((c.tc : Thread nD τ).loc main_arg1))) (norm (m ((c.tc : Thread nD τ).loc main_arg1))) (prod (relu (agg (src (m ((c.tc : Thread nD τ).loc main_arg1))) (dst (m ((c.tc : Thread nD τ).loc main_arg1))) (norm (m ((c.tc : Thread nD τ).loc main_arg1))) (prod (m ((c.tc : Thread nD τ).loc main_arg0)) (m ((c.tc : Thread nD τ).loc main_arg2))) (m ((c.tc : Thread nD τ).loc main_arg3)))) (m ((c.tc : Thread nD τ).loc main_arg4))) (m ((c.tc : Thread nD τ).loc main_arg5))) :=
    (HostK.layer2 (W7 m ρ c)).trans (by rw [h7_v3, h7_v6, h7_v29, h7_v48, h7_arg5])
  have h9_v3 : W9 m ρ c (Proc.devRef .tc main_v3) = src (m ((c.tc : Thread nD τ).loc main_arg1)) := (HostK.layer2_keep_v3 (W7 m ρ c)).trans h7_v3
  have h9_v6 : W9 m ρ c (Proc.devRef .tc main_v6) = dst (m ((c.tc : Thread nD τ).loc main_arg1)) := (HostK.layer2_keep_v6 (W7 m ρ c)).trans h7_v6
  have h9_v29 : W9 m ρ c (Proc.devRef .tc main_v29) = norm (m ((c.tc : Thread nD τ).loc main_arg1)) := (HostK.layer2_keep_v29 (W7 m ρ c)).trans h7_v29
  have h9_arg6 : W9 m ρ c (Proc.devRef .tc main_arg6) = m ((c.tc : Thread nD τ).loc main_arg6) := (HostK.layer2_keep_arg6 (W7 m ρ c)).trans h7_arg6
  have h9_arg7 : W9 m ρ c (Proc.devRef .tc main_arg7) = m ((c.tc : Thread nD τ).loc main_arg7) := (HostK.layer2_keep_arg7 (W7 m ρ c)).trans h7_arg7
  -- the third product
  have h10_v66 : W10 m ρ c (Proc.devRef .tc main_v66) = prod (relu (agg (src (m ((c.tc : Thread nD τ).loc main_arg1))) (dst (m ((c.tc : Thread nD τ).loc main_arg1))) (norm (m ((c.tc : Thread nD τ).loc main_arg1))) (prod (relu (agg (src (m ((c.tc : Thread nD τ).loc main_arg1))) (dst (m ((c.tc : Thread nD τ).loc main_arg1))) (norm (m ((c.tc : Thread nD τ).loc main_arg1))) (prod (m ((c.tc : Thread nD τ).loc main_arg0)) (m ((c.tc : Thread nD τ).loc main_arg2))) (m ((c.tc : Thread nD τ).loc main_arg3)))) (m ((c.tc : Thread nD τ).loc main_arg4))) (m ((c.tc : Thread nD τ).loc main_arg5)))) (m ((c.tc : Thread nD τ).loc main_arg6)) :=
    (W10_arr m ρ c 2).trans ((Region2.final (V9 m ρ) c).trans (congrArg₂ prod h9_v65 h9_arg6))
  have h10_v3 : W10 m ρ c (Proc.devRef .tc main_v3) = src (m ((c.tc : Thread nD τ).loc main_arg1)) := (W10_of_ne m ρ c main_v3 (by decide)).trans h9_v3
  have h10_v6 : W10 m ρ c (Proc.devRef .tc main_v6) = dst (m ((c.tc : Thread nD τ).loc main_arg1)) := (W10_of_ne m ρ c main_v6 (by decide)).trans h9_v6
  have h10_v29 : W10 m ρ c (Proc.devRef .tc main_v29) = norm (m ((c.tc : Thread nD τ).loc main_arg1)) := (W10_of_ne m ρ c main_v29 (by decide)).trans h9_v29
  have h10_arg7 : W10 m ρ c (Proc.devRef .tc main_arg7) = m ((c.tc : Thread nD τ).loc main_arg7) := (W10_of_ne m ρ c main_arg7 (by decide)).trans h9_arg7
  -- the third layer's aggregation is the result
  exact (HostK.layer3 (W10 m ρ c)).trans (by rw [h10_v3, h10_v6, h10_v29, h10_v66, h10_arg7]; rfl)

end Cert.Gcn.KernelValue

end
-- ==== Proof.RefRun.lean ====
/-
  The reference program's run: @main is a straight line of 106 host operations, so every weakly fair execution ends
  with each buffer at the operations' results folded, in order, over the launch memory.

  The line is cut where the kernel program's is: the stretches of operations that build the self-looped endpoint
  lists and the edge weights, then, three times, the product of the current features with a layer's weight followed
  by that layer's gather, scaling, scatter-add, bias (and `relu` after the first two). The stretches are the same
  operations in both programs; only the three products differ, here one `dot_general` each. The fold is named at the
  same boundaries (`U3`: before the first product, `U4`: after it, …, `U11`: at the return).
-/
import proofs.«148581_j78683800863474_1_alg».proof.Proof.Gen.ReferenceIdeal
import Idealize.ShloMosaic.Lib.StableHlo.Run

noncomputable section

namespace Cert.Gcn.Ref

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## The stretches -/

abbrev hostOps0 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

abbrev hostOps0_1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select ]

abbrev hostOps0_2 : List (HloOp τ sig (Elt F)) :=
  [ StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

abbrev hostOps1 : List (HloOp τ sig (Elt F)) :=
  [ StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)) ]

abbrev hostOps1_1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v46 : StableHlo.TRef sig ⟨S50000x256, .f32⟩) (.of main_call1_v0 : StableHlo.TRef sig ⟨S50000x256, .f32⟩) (.of main_v47 : StableHlo.TRef sig ⟨S50000x256, .f32⟩) maximumf ]

abbrev hostOps2 : List (HloOp τ sig (Elt F)) :=
  [ StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v56 (broadcastInDim S850000x1 ![0] bcast_S850000_S850000x1_0 : (⟨S850000, .f32⟩ : BufTy).Contents (Elt F) → (⟨S850000x1, .f32⟩ : BufTy).Contents (Elt F)),
    StableHlo.unary main_v56 main_v57 (broadcastInDim S850000x256 ![0, 1] bcast_S850000x1_S850000x256_0_1 : (⟨S850000x1, .f32⟩ : BufTy).Contents (Elt F) → (⟨S850000x256, .f32⟩ : BufTy).Contents (Elt F)),
    StableHlo.binary main_v55 main_v57 main_v58 (mulf : (⟨S850000x256, .f32⟩ : BufTy).Contents (Elt F) → (⟨S850000x256, .f32⟩ : BufTy).Contents (Elt F) → (⟨S850000x256, .f32⟩ : BufTy).Contents (Elt F)),
    StableHlo.nullary main_cst_11 (constant S_ .f32 0x00000000#32),
    StableHlo.unary main_cst_11 main_v59 (broadcastInDim S50000x256 ![] bcast_S_S50000x256 : (⟨S_, .f32⟩ : BufTy).Contents (Elt F) → (⟨S50000x256, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg5 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v63 main_v64 (addf : (⟨S50000x256, .f32⟩ : BufTy).Contents (Elt F) → (⟨S50000x256, .f32⟩ : BufTy).Contents (Elt F) → (⟨S50000x256, .f32⟩ : BufTy).Contents (Elt F)) ]

abbrev hostOps2_1 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x256, .f32⟩) (broadcastInDim S50000x256 ![] bcast_S_S50000x256),
    StableHlo.TRef.binary (.of main_v64 : StableHlo.TRef sig ⟨S50000x256, .f32⟩) (.of main_call2_v0 : StableHlo.TRef sig ⟨S50000x256, .f32⟩) (.of main_v65 : StableHlo.TRef sig ⟨S50000x256, .f32⟩) maximumf ]

abbrev hostOps3 : List (HloOp τ sig (Elt F)) :=
  [ StableHlo.nullary main_c_12 (constantI S_ 32 0#32),
    StableHlo.unary main_c_12 main_v67 (broadcastInDim S850000 ![] bcast_S_S850000 : (⟨S_, .i32⟩ : BufTy).Contents (Elt F) → (⟨S850000, .i32⟩ : BufTy).Contents (Elt F)),
    StableHlo.binary main_v3 main_v67 main_v68 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v69 (broadcastInDim S850000 ![] bcast_S_S850000 : (⟨S_, .i32⟩ : BufTy).Contents (Elt F) → (⟨S850000, .i32⟩ : BufTy).Contents (Elt F)),
    StableHlo.binary main_v3 main_v69 main_v70 (addi : (⟨S850000, .i32⟩ : BufTy).Contents (Elt F) → (⟨S850000, .i32⟩ : BufTy).Contents (Elt F) → (⟨S850000, .i32⟩ : BufTy).Contents (Elt F)),
    StableHlo.ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v71 main_v72 (broadcastInDim S850000x1 ![0] bcast_S850000_S850000x1_0 : (⟨S850000, .i32⟩ : BufTy).Contents (Elt F) → (⟨S850000x1, .i32⟩ : BufTy).Contents (Elt F)),
    StableHlo.binary main_v66 main_v72 main_v73 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v74 (broadcastInDim S850000x1 ![0] bcast_S850000_S850000x1_0 : (⟨S850000, .f32⟩ : BufTy).Contents (Elt F) → (⟨S850000x1, .f32⟩ : BufTy).Contents (Elt F)),
    StableHlo.unary main_v74 main_v75 (broadcastInDim S850000x256 ![0, 1] bcast_S850000x1_S850000x256_0_1 : (⟨S850000x1, .f32⟩ : BufTy).Contents (Elt F) → (⟨S850000x256, .f32⟩ : BufTy).Contents (Elt F)),
    StableHlo.binary main_v73 main_v75 main_v76 (mulf : (⟨S850000x256, .f32⟩ : BufTy).Contents (Elt F) → (⟨S850000x256, .f32⟩ : BufTy).Contents (Elt F) → (⟨S850000x256, .f32⟩ : BufTy).Contents (Elt F)),
    StableHlo.nullary main_cst_14 (constant S_ .f32 0x00000000#32),
    StableHlo.unary main_cst_14 main_v77 (broadcastInDim S50000x256 ![] bcast_S_S50000x256 : (⟨S_, .f32⟩ : BufTy).Contents (Elt F) → (⟨S50000x256, .f32⟩ : BufTy).Contents (Elt F)),
    StableHlo.unary main_v6 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v80 (broadcastInDim S1x256 ![1] bcast_S256_S1x256_1 : (⟨S256, .f32⟩ : BufTy).Contents (Elt F) → (⟨S1x256, .f32⟩ : BufTy).Contents (Elt F)),
    StableHlo.unary main_v80 main_v81 (broadcastInDim S50000x256 ![0, 1] bcast_S1x256_S50000x256_0_1 : (⟨S1x256, .f32⟩ : BufTy).Contents (Elt F) → (⟨S50000x256, .f32⟩ : BufTy).Contents (Elt F)),
    StableHlo.binary main_v79 main_v81 main_v82 (addf : (⟨S50000x256, .f32⟩ : BufTy).Contents (Elt F) → (⟨S50000x256, .f32⟩ : BufTy).Contents (Elt F) → (⟨S50000x256, .f32⟩ : BufTy).Contents (Elt F)) ]

/-- The first layer's product: the features times the first weight. -/
abbrev dot0 : HloOp τ sig (Elt F) := StableHlo.binary main_arg0 main_arg2 main_v30 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))
/-- The second layer's product. -/
abbrev dot1 : HloOp τ sig (Elt F) := StableHlo.binary main_v47 main_arg4 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))
/-- The third layer's product. -/
abbrev dot2 : HloOp τ sig (Elt F) := StableHlo.binary main_v65 main_arg6 main_v66 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))

/-! ## @main as the list of its operations -/

/-- @main's 106 operations, in order (a called function's operations stand in its call's place). -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x256, .f32⟩) (broadcastInDim S50000x256 ![] bcast_S_S50000x256),
    StableHlo.TRef.binary (.of main_v46 : StableHlo.TRef sig ⟨S50000x256, .f32⟩) (.of main_call1_v0 : StableHlo.TRef sig ⟨S50000x256, .f32⟩) (.of main_v47 : StableHlo.TRef sig ⟨S50000x256, .f32⟩) maximumf,
    StableHlo.binary main_v47 main_arg4 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v56 (broadcastInDim S850000x1 ![0] bcast_S850000_S850000x1_0 : (⟨S850000, .f32⟩ : BufTy).Contents (Elt F) → (⟨S850000x1, .f32⟩ : BufTy).Contents (Elt F)),
    StableHlo.unary main_v56 main_v57 (broadcastInDim S850000x256 ![0, 1] bcast_S850000x1_S850000x256_0_1 : (⟨S850000x1, .f32⟩ : BufTy).Contents (Elt F) → (⟨S850000x256, .f32⟩ : BufTy).Contents (Elt F)),
    StableHlo.binary main_v55 main_v57 main_v58 (mulf : (⟨S850000x256, .f32⟩ : BufTy).Contents (Elt F) → (⟨S850000x256, .f32⟩ : BufTy).Contents (Elt F) → (⟨S850000x256, .f32⟩ : BufTy).Contents (Elt F)),
    StableHlo.nullary main_cst_11 (constant S_ .f32 0x00000000#32),
    StableHlo.unary main_cst_11 main_v59 (broadcastInDim S50000x256 ![] bcast_S_S50000x256 : (⟨S_, .f32⟩ : BufTy).Contents (Elt F) → (⟨S50000x256, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg5 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v63 main_v64 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x256, .f32⟩) (broadcastInDim S50000x256 ![] bcast_S_S50000x256),
    StableHlo.TRef.binary (.of main_v64 : StableHlo.TRef sig ⟨S50000x256, .f32⟩) (.of main_call2_v0 : StableHlo.TRef sig ⟨S50000x256, .f32⟩) (.of main_v65 : StableHlo.TRef sig ⟨S50000x256, .f32⟩) maximumf,
    StableHlo.binary main_v65 main_arg6 main_v66 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_12 (constantI S_ 32 0#32),
    StableHlo.unary main_c_12 main_v67 (broadcastInDim S850000 ![] bcast_S_S850000 : (⟨S_, .i32⟩ : BufTy).Contents (Elt F) → (⟨S850000, .i32⟩ : BufTy).Contents (Elt F)),
    StableHlo.binary main_v3 main_v67 main_v68 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v69 (broadcastInDim S850000 ![] bcast_S_S850000 : (⟨S_, .i32⟩ : BufTy).Contents (Elt F) → (⟨S850000, .i32⟩ : BufTy).Contents (Elt F)),
    StableHlo.binary main_v3 main_v69 main_v70 (addi : (⟨S850000, .i32⟩ : BufTy).Contents (Elt F) → (⟨S850000, .i32⟩ : BufTy).Contents (Elt F) → (⟨S850000, .i32⟩ : BufTy).Contents (Elt F)),
    StableHlo.ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v71 main_v72 (broadcastInDim S850000x1 ![0] bcast_S850000_S850000x1_0 : (⟨S850000, .i32⟩ : BufTy).Contents (Elt F) → (⟨S850000x1, .i32⟩ : BufTy).Contents (Elt F)),
    StableHlo.binary main_v66 main_v72 main_v73 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v74 (broadcastInDim S850000x1 ![0] bcast_S850000_S850000x1_0 : (⟨S850000, .f32⟩ : BufTy).Contents (Elt F) → (⟨S850000x1, .f32⟩ : BufTy).Contents (Elt F)),
    StableHlo.unary main_v74 main_v75 (broadcastInDim S850000x256 ![0, 1] bcast_S850000x1_S850000x256_0_1 : (⟨S850000x1, .f32⟩ : BufTy).Contents (Elt F) → (⟨S850000x256, .f32⟩ : BufTy).Contents (Elt F)),
    StableHlo.binary main_v73 main_v75 main_v76 (mulf : (⟨S850000x256, .f32⟩ : BufTy).Contents (Elt F) → (⟨S850000x256, .f32⟩ : BufTy).Contents (Elt F) → (⟨S850000x256, .f32⟩ : BufTy).Contents (Elt F)),
    StableHlo.nullary main_cst_14 (constant S_ .f32 0x00000000#32),
    StableHlo.unary main_cst_14 main_v77 (broadcastInDim S50000x256 ![] bcast_S_S50000x256 : (⟨S_, .f32⟩ : BufTy).Contents (Elt F) → (⟨S50000x256, .f32⟩ : BufTy).Contents (Elt F)),
    StableHlo.unary main_v6 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v80 (broadcastInDim S1x256 ![1] bcast_S256_S1x256_1 : (⟨S256, .f32⟩ : BufTy).Contents (Elt F) → (⟨S1x256, .f32⟩ : BufTy).Contents (Elt F)),
    StableHlo.unary main_v80 main_v81 (broadcastInDim S50000x256 ![0, 1] bcast_S1x256_S50000x256_0_1 : (⟨S1x256, .f32⟩ : BufTy).Contents (Elt F) → (⟨S50000x256, .f32⟩ : BufTy).Contents (Elt F)),
    StableHlo.binary main_v79 main_v81 main_v82 (addf : (⟨S50000x256, .f32⟩ : BufTy).Contents (Elt F) → (⟨S50000x256, .f32⟩ : BufTy).Contents (Elt F) → (⟨S50000x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-! ## The fold, named at the kernel program's boundaries -/

variable (m : (ℓ : Loc nD τ sig) → Buf (Elt F) ℓ)

/-- The launch contents. -/
abbrev U0 (c : Dev nD) : Valuation τ sig (Elt F) := launchContents m c
/-- Before the first product. -/
abbrev U3 (c : Dev nD) : Valuation τ sig (Elt F) := after hostOps0_2 (after hostOps0_1 (after hostOps0 (U0 m c)))
/-- After the first product. -/
abbrev U4 (c : Dev nD) : Valuation τ sig (Elt F) := after [dot0] (U3 m c)
/-- Before the second product. -/
abbrev U6 (c : Dev nD) : Valuation τ sig (Elt F) := after hostOps1_1 (after hostOps1 (U4 m c))
/-- After the second product. -/
abbrev U7 (c : Dev nD) : Valuation τ sig (Elt F) := after [dot1] (U6 m c)
/-- Before the third product. -/
abbrev U9 (c : Dev nD) : Valuation τ sig (Elt F) := after hostOps2_1 (after hostOps2 (U7 m c))
/-- After the third product. -/
abbrev U10 (c : Dev nD) : Valuation τ sig (Elt F) := after [dot2] (U9 m c)
/-- At the return. -/
abbrev U11 (c : Dev nD) : Valuation τ sig (Elt F) := after hostOps3 (U10 m c)

set_option maxRecDepth 8192 in
/-- The whole line's fold is the fold stretch by stretch. -/
theorem fold_eq (c : Dev nD) : after (ops (F := F)) (launchContents m c) = U11 m c := rfl

/-! ## The run -/

set_option maxRecDepth 8192 in
set_option maxHeartbeats 4000000 in
/-- Every weakly fair execution of the reference program ends with the result buffer at the last boundary's
    contents and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v82) = U11 m c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v82).trans (congrFun (fold_eq m c) _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.Gcn.Ref

end
-- ==== Proof.HostR.lean ====
/-
  What the reference program's stretches of host operations compute, from ANY contents `V` of the buffers they start from.

  The first stretches build, from the edge array alone, the source list, the destination list, the degrees and from
  them the edge weights; they touch no other argument. Each later stretch takes a layer's projected features, gathers
  the source rows, scales them by the edge weights, scatter-adds them into the destination rows and adds the bias —
  `agg` — and, after the first two layers, a three-operation stretch takes the positive part. The endpoint lists, the
  weights and the later layers' arguments pass through a stretch untouched. Each statement is a stretch's operations
  applied one after the other to `V`, read at one buffer; the longer ones are composed from the shorter.
-/
import proofs.«148581_j78683800863474_1_alg».proof.Proof.Spec
import proofs.«148581_j78683800863474_1_alg».proof.Proof.RefRun
import Idealize.ShloMosaic.Lib.StableHlo.Run

set_option maxRecDepth 8192

noncomputable section

namespace Cert.Gcn.HostR

open Idealize.ShloMosaic Idealize.ShloMosaic.TcCoe Idealize.SL.Sem Idealize.ShloMosaic.StableHlo
open Cert.Gcn
open Cert.ReferenceIdeal Cert.ReferenceIdeal.Gen Cert.ReferenceIdeal.Facts₀ Cert.ReferenceIdeal.Facts Cert.Gcn.Ref

variable (V : Valuation τ sig (Elt Ideal))

/-! ## The first stretch: the endpoint lists and what the degrees give -/

/-- The sources: row 0 of the edge array, then the self-loops. -/
theorem src0 : after hostOps0 V (Proc.devRef .tc main_v3) = src (V (Proc.devRef .tc main_arg1)) := by
  dsimp only [hostOps0]
  after_results <;> rfl
/-- The destinations: row 1 of the edge array, then the self-loops. -/
theorem dst0 : after hostOps0 V (Proc.devRef .tc main_v6) = dst (V (Proc.devRef .tc main_arg1)) := by
  dsimp only [hostOps0]
  after_results <;> rfl
/-- Where the degree is positive. -/
theorem pos0 : after hostOps0 V (Proc.devRef .tc main_v12) = degPos (V (Proc.devRef .tc main_arg1)) := by
  dsimp only [hostOps0]
  after_results_simp
  unfold degPos deg col dst loops
  rfl
/-- The reciprocal square roots of the degrees. -/
theorem rsq0 : after hostOps0 V (Proc.devRef .tc main_v13) = degRsqrt (V (Proc.devRef .tc main_arg1)) := by
  dsimp only [hostOps0]
  after_results_simp
  unfold degRsqrt deg col dst loops
  rfl
/-- The scalar the `where` falls back to. -/
theorem zero0 : after hostOps0 V (Proc.devRef .tc main_cst_2) = zero := by
  dsimp only [hostOps0]
  after_results <;> rfl

/-! ## The `where`: three operations -/

theorem where0 : after hostOps0_1 V (Proc.devRef .tc main_v14) = pick (V (Proc.devRef .tc main_v12)) (V (Proc.devRef .tc main_v13)) (V (Proc.devRef .tc main_cst_2)) := by
  dsimp only [hostOps0_1]
  after_results <;> rfl
theorem where0_keep_v3 : after hostOps0_1 V (Proc.devRef .tc main_v3) = V (Proc.devRef .tc main_v3) := by
  dsimp only [hostOps0_1]
  after_results <;> rfl
theorem where0_keep_v6 : after hostOps0_1 V (Proc.devRef .tc main_v6) = V (Proc.devRef .tc main_v6) := by
  dsimp only [hostOps0_1]
  after_results <;> rfl

/-! ## The edge weights from the per-node factor and the endpoint lists -/

theorem norm0 : after hostOps0_2 V (Proc.devRef .tc main_v29) = edgeW (V (Proc.devRef .tc main_v14)) (V (Proc.devRef .tc main_v3)) (V (Proc.devRef .tc main_v6)) := by
  dsimp only [hostOps0_2]
  after_results_simp
  unfold edgeW col wrap
  rfl

/-! ## The three first stretches together -/

/-- The sources. -/
theorem first_src : after hostOps0_2 (after hostOps0_1 (after hostOps0 V)) (Proc.devRef .tc main_v3) = src (V (Proc.devRef .tc main_arg1)) := by
  dsimp only [hostOps0_2, hostOps0_1, hostOps0]
  after_results <;> rfl
/-- The destinations. -/
theorem first_dst : after hostOps0_2 (after hostOps0_1 (after hostOps0 V)) (Proc.devRef .tc main_v6) = dst (V (Proc.devRef .tc main_arg1)) := by
  dsimp only [hostOps0_2, hostOps0_1, hostOps0]
  after_results <;> rfl
/-- The edge weights: the per-node factor is `dinv`, read at the two endpoint lists. -/
theorem first_norm : after hostOps0_2 (after hostOps0_1 (after hostOps0 V)) (Proc.devRef .tc main_v29) = norm (V (Proc.devRef .tc main_arg1)) := by
  refine (norm0 _).trans ?_
  rw [where0, where0_keep_v3, where0_keep_v6, pos0, rsq0, zero0, src0, dst0]
  rfl
theorem first_keep_arg0 : after hostOps0_2 (after hostOps0_1 (after hostOps0 V)) (Proc.devRef .tc main_arg0) = V (Proc.devRef .tc main_arg0) := by
  dsimp only [hostOps0_2, hostOps0_1, hostOps0]
  after_results <;> rfl
theorem first_keep_arg2 : after hostOps0_2 (after hostOps0_1 (after hostOps0 V)) (Proc.devRef .tc main_arg2) = V (Proc.devRef .tc main_arg2) := by
  dsimp only [hostOps0_2, hostOps0_1, hostOps0]
  after_results <;> rfl
theorem first_keep_arg3 : after hostOps0_2 (after hostOps0_1 (after hostOps0 V)) (Proc.devRef .tc main_arg3) = V (Proc.devRef .tc main_arg3) := by
  dsimp only [hostOps0_2, hostOps0_1, hostOps0]
  after_results <;> rfl
theorem first_keep_arg4 : after hostOps0_2 (after hostOps0_1 (after hostOps0 V)) (Proc.devRef .tc main_arg4) = V (Proc.devRef .tc main_arg4) := by
  dsimp only [hostOps0_2, hostOps0_1, hostOps0]
  after_results <;> rfl
theorem first_keep_arg5 : after hostOps0_2 (after hostOps0_1 (after hostOps0 V)) (Proc.devRef .tc main_arg5) = V (Proc.devRef .tc main_arg5) := by
  dsimp only [hostOps0_2, hostOps0_1, hostOps0]
  after_results <;> rfl
theorem first_keep_arg6 : after hostOps0_2 (after hostOps0_1 (after hostOps0 V)) (Proc.devRef .tc main_arg6) = V (Proc.devRef .tc main_arg6) := by
  dsimp only [hostOps0_2, hostOps0_1, hostOps0]
  after_results <;> rfl
theorem first_keep_arg7 : after hostOps0_2 (after hostOps0_1 (after hostOps0 V)) (Proc.devRef .tc main_arg7) = V (Proc.devRef .tc main_arg7) := by
  dsimp only [hostOps0_2, hostOps0_1, hostOps0]
  after_results <;> rfl

/-! ## The first layer's aggregation and positive part -/

theorem agg1 : after hostOps1 V (Proc.devRef .tc main_v46)
    = agg (V (Proc.devRef .tc main_v3)) (V (Proc.devRef .tc main_v6)) (V (Proc.devRef .tc main_v29)) (V (Proc.devRef .tc main_v30)) (V (Proc.devRef .tc main_arg3)) := by
  dsimp only [hostOps1]
  after_results_simp
  unfold agg col wrap
  rfl
theorem relu1 : after hostOps1_1 V (Proc.devRef .tc main_v47) = relu (V (Proc.devRef .tc main_v46)) := by
  dsimp only [hostOps1_1]
  after_results <;> rfl
theorem layer1 : after hostOps1_1 (after hostOps1 V) (Proc.devRef .tc main_v47)
    = relu (agg (V (Proc.devRef .tc main_v3)) (V (Proc.devRef .tc main_v6)) (V (Proc.devRef .tc main_v29)) (V (Proc.devRef .tc main_v30)) (V (Proc.devRef .tc main_arg3))) :=
  (relu1 _).trans (congrArg relu (agg1 V))
theorem layer1_keep_v3 : after hostOps1_1 (after hostOps1 V) (Proc.devRef .tc main_v3) = V (Proc.devRef .tc main_v3) := by
  dsimp only [hostOps1_1, hostOps1]
  after_results <;> rfl
theorem layer1_keep_v6 : after hostOps1_1 (after hostOps1 V) (Proc.devRef .tc main_v6) = V (Proc.devRef .tc main_v6) := by
  dsimp only [hostOps1_1, hostOps1]
  after_results <;> rfl
theorem layer1_keep_v29 : after hostOps1_1 (after hostOps1 V) (Proc.devRef .tc main_v29) = V (Proc.devRef .tc main_v29) := by
  dsimp only [hostOps1_1, hostOps1]
  after_results <;> rfl
theorem layer1_keep_arg4 : after hostOps1_1 (after hostOps1 V) (Proc.devRef .tc main_arg4) = V (Proc.devRef .tc main_arg4) := by
  dsimp only [hostOps1_1, hostOps1]
  after_results <;> rfl
theorem layer1_keep_arg5 : after hostOps1_1 (after hostOps1 V) (Proc.devRef .tc main_arg5) = V (Proc.devRef .tc main_arg5) := by
  dsimp only [hostOps1_1, hostOps1]
  after_results <;> rfl
theorem layer1_keep_arg6 : after hostOps1_1 (after hostOps1 V) (Proc.devRef .tc main_arg6) = V (Proc.devRef .tc main_arg6) := by
  dsimp only [hostOps1_1, hostOps1]
  after_results <;> rfl
theorem layer1_keep_arg7 : after hostOps1_1 (after hostOps1 V) (Proc.devRef .tc main_arg7) = V (Proc.devRef .tc main_arg7) := by
  dsimp only [hostOps1_1, hostOps1]
  after_results <;> rfl

/-! ## The second layer's -/

theorem agg2 : after hostOps2 V (Proc.devRef .tc main_v64)
    = agg (V (Proc.devRef .tc main_v3)) (V (Proc.devRef .tc main_v6)) (V (Proc.devRef .tc main_v29)) (V (Proc.devRef .tc main_v48)) (V (Proc.devRef .tc main_arg5)) := by
  dsimp only [hostOps2]
  after_results_simp
  unfold agg col wrap
  rfl
theorem relu2 : after hostOps2_1 V (Proc.devRef .tc main_v65) = relu (V (Proc.devRef .tc main_v64)) := by
  dsimp only [hostOps2_1]
  after_results <;> rfl
theorem layer2 : after hostOps2_1 (after hostOps2 V) (Proc.devRef .tc main_v65)
    = relu (agg (V (Proc.devRef .tc main_v3)) (V (Proc.devRef .tc main_v6)) (V (Proc.devRef .tc main_v29)) (V (Proc.devRef .tc main_v48)) (V (Proc.devRef .tc main_arg5))) :=
  (relu2 _).trans (congrArg relu (agg2 V))
theorem layer2_keep_v3 : after hostOps2_1 (after hostOps2 V) (Proc.devRef .tc main_v3) = V (Proc.devRef .tc main_v3) := by
  dsimp only [hostOps2_1, hostOps2]
  after_results <;> rfl
theorem layer2_keep_v6 : after hostOps2_1 (after hostOps2 V) (Proc.devRef .tc main_v6) = V (Proc.devRef .tc main_v6) := by
  dsimp only [hostOps2_1, hostOps2]
  after_results <;> rfl
theorem layer2_keep_v29 : after hostOps2_1 (after hostOps2 V) (Proc.devRef .tc main_v29) = V (Proc.devRef .tc main_v29) := by
  dsimp only [hostOps2_1, hostOps2]
  after_results <;> rfl
theorem layer2_keep_arg6 : after hostOps2_1 (after hostOps2 V) (Proc.devRef .tc main_arg6) = V (Proc.devRef .tc main_arg6) := by
  dsimp only [hostOps2_1, hostOps2]
  after_results <;> rfl
theorem layer2_keep_arg7 : after hostOps2_1 (after hostOps2 V) (Proc.devRef .tc main_arg7) = V (Proc.devRef .tc main_arg7) := by
  dsimp only [hostOps2_1, hostOps2]
  after_results <;> rfl

/-! ## The third layer's aggregation: the result -/

theorem layer3 : after hostOps3 V (Proc.devRef .tc main_v82)
    = agg (V (Proc.devRef .tc main_v3)) (V (Proc.devRef .tc main_v6)) (V (Proc.devRef .tc main_v29)) (V (Proc.devRef .tc main_v66)) (V (Proc.devRef .tc main_arg7)) := by
  dsimp only [hostOps3]
  after_results_simp
  unfold agg col wrap
  rfl

/-! ## The three products: one `dot_general` each, every other buffer untouched -/

theorem dot0_out : after [dot0] V (Proc.devRef .tc main_v30) = Host.dotGeneral (F := Ideal) (φ₁ := .f32) (φ₂ := .f32) dot_S50000x256_S256x256_S50000x256_1_0_0_1_n_n none (V (Proc.devRef .tc main_arg0)) (V (Proc.devRef .tc main_arg2)) := by
  dsimp only [dot0]
  after_results <;> rfl
theorem dot0_keep_v3 : after [dot0] V (Proc.devRef .tc main_v3) = V (Proc.devRef .tc main_v3) := by
  dsimp only [dot0]
  after_results <;> rfl
theorem dot0_keep_v6 : after [dot0] V (Proc.devRef .tc main_v6) = V (Proc.devRef .tc main_v6) := by
  dsimp only [dot0]
  after_results <;> rfl
theorem dot0_keep_v29 : after [dot0] V (Proc.devRef .tc main_v29) = V (Proc.devRef .tc main_v29) := by
  dsimp only [dot0]
  after_results <;> rfl
theorem dot0_keep_arg3 : after [dot0] V (Proc.devRef .tc main_arg3) = V (Proc.devRef .tc main_arg3) := by
  dsimp only [dot0]
  after_results <;> rfl
theorem dot0_keep_arg4 : after [dot0] V (Proc.devRef .tc main_arg4) = V (Proc.devRef .tc main_arg4) := by
  dsimp only [dot0]
  after_results <;> rfl
theorem dot0_keep_arg5 : after [dot0] V (Proc.devRef .tc main_arg5) = V (Proc.devRef .tc main_arg5) := by
  dsimp only [dot0]
  after_results <;> rfl
theorem dot0_keep_arg6 : after [dot0] V (Proc.devRef .tc main_arg6) = V (Proc.devRef .tc main_arg6) := by
  dsimp only [dot0]
  after_results <;> rfl
theorem dot0_keep_arg7 : after [dot0] V (Proc.devRef .tc main_arg7) = V (Proc.devRef .tc main_arg7) := by
  dsimp only [dot0]
  after_results <;> rfl
theorem dot1_out : after [dot1] V (Proc.devRef .tc main_v48) = Host.dotGeneral (F := Ideal) (φ₁ := .f32) (φ₂ := .f32) dot_S50000x256_S256x256_S50000x256_1_0_0_1_n_n none (V (Proc.devRef .tc main_v47)) (V (Proc.devRef .tc main_arg4)) := by
  dsimp only [dot1]
  after_results <;> rfl
theorem dot1_keep_v3 : after [dot1] V (Proc.devRef .tc main_v3) = V (Proc.devRef .tc main_v3) := by
  dsimp only [dot1]
  after_results <;> rfl
theorem dot1_keep_v6 : after [dot1] V (Proc.devRef .tc main_v6) = V (Proc.devRef .tc main_v6) := by
  dsimp only [dot1]
  after_results <;> rfl
theorem dot1_keep_v29 : after [dot1] V (Proc.devRef .tc main_v29) = V (Proc.devRef .tc main_v29) := by
  dsimp only [dot1]
  after_results <;> rfl
theorem dot1_keep_arg5 : after [dot1] V (Proc.devRef .tc main_arg5) = V (Proc.devRef .tc main_arg5) := by
  dsimp only [dot1]
  after_results <;> rfl
theorem dot1_keep_arg6 : after [dot1] V (Proc.devRef .tc main_arg6) = V (Proc.devRef .tc main_arg6) := by
  dsimp only [dot1]
  after_results <;> rfl
theorem dot1_keep_arg7 : after [dot1] V (Proc.devRef .tc main_arg7) = V (Proc.devRef .tc main_arg7) := by
  dsimp only [dot1]
  after_results <;> rfl
theorem dot2_out : after [dot2] V (Proc.devRef .tc main_v66) = Host.dotGeneral (F := Ideal) (φ₁ := .f32) (φ₂ := .f32) dot_S50000x256_S256x256_S50000x256_1_0_0_1_n_n none (V (Proc.devRef .tc main_v65)) (V (Proc.devRef .tc main_arg6)) := by
  dsimp only [dot2]
  after_results <;> rfl
theorem dot2_keep_v3 : after [dot2] V (Proc.devRef .tc main_v3) = V (Proc.devRef .tc main_v3) := by
  dsimp only [dot2]
  after_results <;> rfl
theorem dot2_keep_v6 : after [dot2] V (Proc.devRef .tc main_v6) = V (Proc.devRef .tc main_v6) := by
  dsimp only [dot2]
  after_results <;> rfl
theorem dot2_keep_v29 : after [dot2] V (Proc.devRef .tc main_v29) = V (Proc.devRef .tc main_v29) := by
  dsimp only [dot2]
  after_results <;> rfl
theorem dot2_keep_arg7 : after [dot2] V (Proc.devRef .tc main_arg7) = V (Proc.devRef .tc main_arg7) := by
  dsimp only [dot2]
  after_results <;> rfl

end Cert.Gcn.HostR

end
-- ==== Proof.RefProduct.lean ====
/-
  The reference's `dot_general` of a 50000 × 256 array with a 256 × 256 weight, over the extended reals, is the
  product by its defining sum: entry `(i, j)` is `Σ_{k < 256} A[i, k] · B[k, j]`.
-/
import proofs.«148581_j78683800863474_1_alg».proof.Proof.Gen.ReferenceIdeal
import proofs.«148581_j78683800863474_1_alg».proof.Proof.Spec
import Idealize.ShloMosaic.Lib.ValueIdx
import Idealize.ShloMosaic.PureOps.Ideal.Laws

noncomputable section

namespace Cert.Gcn.RefProduct

open Idealize.ShloMosaic Idealize.ShloMosaic.ValueIdx Cert.ReferenceIdeal Cert.ReferenceIdeal.Gen Cert.ReferenceIdeal.Facts₀ Cert.ReferenceIdeal.Facts
open scoped BigOperators

/-- The left operand is read in the output's row … -/
theorem lhs_row (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
/-- … at the summation coordinate; -/
theorem lhs_col (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
/-- the right operand at the summation coordinate … -/
theorem rhs_row (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
/-- … in the output's column. -/
theorem rhs_col (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- The host's `dot_general` is the product by its defining sum. -/
theorem dot_eq (A : Cert.Gcn.Mat) (B : Cert.Gcn.Wt) :
    Host.dotGeneral (F := Ideal) dot_S50000x256_S256x256_S50000x256_1_0_0_1_n_n none A B = Cert.Gcn.prod A B := by
  funext j
  unfold Cert.Gcn.prod
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx j ((contrEquiv1 dot_S50000x256_S256x256_S50000x256_1_0_0_1_n_n 256 rfl rfl).symm k) = ix2 (j 0) k := funext fun a => Fin.ext (by
    match a with
    | ⟨0, _⟩ => exact lhs_row _ _
    | ⟨1, _⟩ => exact (lhs_col _ _).trans hk)
  have er : dot_S50000x256_S256x256_S50000x256_1_0_0_1_n_n.rhsIdx j ((contrEquiv1 dot_S50000x256_S256x256_S50000x256_1_0_0_1_n_n 256 rfl rfl).symm k) = ix2 k (j 1) := funext fun a => Fin.ext (by
    match a with
    | ⟨0, _⟩ => exact (rhs_row _ _).trans hk
    | ⟨1, _⟩ => exact rhs_col _ _)
  rw [el, er]
  rfl

end Cert.Gcn.RefProduct

end
-- ==== Proof.RefValue.lean ====
/-
  The reference program's result buffer at its last boundary is the three-layer network of its launch arguments.

  Boundary by boundary through @main: the first stretches leave the source list, the destination list and the edge
  weights, functions of the edge array alone, and every other argument as launched; each `dot_general` writes the
  product of its two operands and touches nothing else; each later stretch aggregates
  the product over the self-looped graph, adds the bias and (twice) takes the positive part, and carries the lists, the
  weights and the remaining arguments on. Composed, the result buffer holds `gcn` of the eight arguments.
-/
import proofs.«148581_j78683800863474_1_alg».proof.Proof.Spec
import proofs.«148581_j78683800863474_1_alg».proof.Proof.HostR
import proofs.«148581_j78683800863474_1_alg».proof.Proof.RefRun
import proofs.«148581_j78683800863474_1_alg».proof.Proof.RefProduct

set_option maxRecDepth 8192

noncomputable section

namespace Cert.Gcn.RefValue

open Idealize.ShloMosaic Idealize.ShloMosaic.TcCoe Idealize.SL.Sem Idealize.ShloMosaic.StableHlo
open Cert.Gcn
open Cert.ReferenceIdeal Cert.Gcn.Ref

variable (m : (ℓ : Loc nD τ sig) → Buf (Elt Ideal) ℓ)

set_option maxHeartbeats 1000000 in
/-- The result buffer at the last boundary: the network of the launch arguments. -/
theorem result (c : Dev nD) :
    U11 m c (Proc.devRef .tc main_v82)
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  -- before the first product: the endpoint lists, the weights, the untouched arguments
  have h3_v3 : U3 m c (Proc.devRef .tc main_v3) = src (m ((c.tc : Thread nD τ).loc main_arg1)) := HostR.first_src (U0 m c)
  have h3_v6 : U3 m c (Proc.devRef .tc main_v6) = dst (m ((c.tc : Thread nD τ).loc main_arg1)) := HostR.first_dst (U0 m c)
  have h3_v29 : U3 m c (Proc.devRef .tc main_v29) = norm (m ((c.tc : Thread nD τ).loc main_arg1)) := HostR.first_norm (U0 m c)
  have h3_arg0 : U3 m c (Proc.devRef .tc main_arg0) = m ((c.tc : Thread nD τ).loc main_arg0) := HostR.first_keep_arg0 (U0 m c)
  have h3_arg2 : U3 m c (Proc.devRef .tc main_arg2) = m ((c.tc : Thread nD τ).loc main_arg2) := HostR.first_keep_arg2 (U0 m c)
  have h3_arg3 : U3 m c (Proc.devRef .tc main_arg3) = m ((c.tc : Thread nD τ).loc main_arg3) := HostR.first_keep_arg3 (U0 m c)
  have h3_arg4 : U3 m c (Proc.devRef .tc main_arg4) = m ((c.tc : Thread nD τ).loc main_arg4) := HostR.first_keep_arg4 (U0 m c)
  have h3_arg5 : U3 m c (Proc.devRef .tc main_arg5) = m ((c.tc : Thread nD τ).loc main_arg5) := HostR.first_keep_arg5 (U0 m c)
  have h3_arg6 : U3 m c (Proc.devRef .tc main_arg6) = m ((c.tc : Thread nD τ).loc main_arg6) := HostR.first_keep_arg6 (U0 m c)
  have h3_arg7 : U3 m c (Proc.devRef .tc main_arg7) = m ((c.tc : Thread nD τ).loc main_arg7) := HostR.first_keep_arg7 (U0 m c)
  -- the first product
  have h4_v30 : U4 m c (Proc.devRef .tc main_v30) = prod (m ((c.tc : Thread nD τ).loc main_arg0)) (m ((c.tc : Thread nD τ).loc main_arg2)) :=
    (HostR.dot0_out (U3 m c)).trans ((RefProduct.dot_eq _ _).trans (congrArg₂ prod h3_arg0 h3_arg2))
  have h4_v3 : U4 m c (Proc.devRef .tc main_v3) = src (m ((c.tc : Thread nD τ).loc main_arg1)) := (HostR.dot0_keep_v3 (U3 m c)).trans h3_v3
  have h4_v6 : U4 m c (Proc.devRef .tc main_v6) = dst (m ((c.tc : Thread nD τ).loc main_arg1)) := (HostR.dot0_keep_v6 (U3 m c)).trans h3_v6
  have h4_v29 : U4 m c (Proc.devRef .tc main_v29) = norm (m ((c.tc : Thread nD τ).loc main_arg1)) := (HostR.dot0_keep_v29 (U3 m c)).trans h3_v29
  have h4_arg3 : U4 m c (Proc.devRef .tc main_arg3) = m ((c.tc : Thread nD τ).loc main_arg3) := (HostR.dot0_keep_arg3 (U3 m c)).trans h3_arg3
  have h4_arg4 : U4 m c (Proc.devRef .tc main_arg4) = m ((c.tc : Thread nD τ).loc main_arg4) := (HostR.dot0_keep_arg4 (U3 m c)).trans h3_arg4
  have h4_arg5 : U4 m c (Proc.devRef .tc main_arg5) = m ((c.tc : Thread nD τ).loc main_arg5) := (HostR.dot0_keep_arg5 (U3 m c)).trans h3_arg5
  have h4_arg6 : U4 m c (Proc.devRef .tc main_arg6) = m ((c.tc : Thread nD τ).loc main_arg6) := (HostR.dot0_keep_arg6 (U3 m c)).trans h3_arg6
  have h4_arg7 : U4 m c (Proc.devRef .tc main_arg7) = m ((c.tc : Thread nD τ).loc main_arg7) := (HostR.dot0_keep_arg7 (U3 m c)).trans h3_arg7
  -- the first layer's aggregation and positive part
  have h6_v47 : U6 m c (Proc.devRef .tc main_v47) = relu (agg (src (m ((c.tc : Thread nD τ).loc main_arg1))) (dst (m ((c.tc : Thread nD τ).loc main_arg1))) (norm (m ((c.tc : Thread nD τ).loc main_arg1))) (prod (m ((c.tc : Thread nD τ).loc main_arg0)) (m ((c.tc : Thread nD τ).loc main_arg2))) (m ((c.tc : Thread nD τ).loc main_arg3))) :=
    (HostR.layer1 (U4 m c)).trans (by rw [h4_v3, h4_v6, h4_v29, h4_v30, h4_arg3])
  have h6_v3 : U6 m c (Proc.devRef .tc main_v3) = src (m ((c.tc : Thread nD τ).loc main_arg1)) := (HostR.layer1_keep_v3 (U4 m c)).trans h4_v3
  have h6_v6 : U6 m c (Proc.devRef .tc main_v6) = dst (m ((c.tc : Thread nD τ).loc main_arg1)) := (HostR.layer1_keep_v6 (U4 m c)).trans h4_v6
  have h6_v29 : U6 m c (Proc.devRef .tc main_v29) = norm (m ((c.tc : Thread nD τ).loc main_arg1)) := (HostR.layer1_keep_v29 (U4 m c)).trans h4_v29
  have h6_arg4 : U6 m c (Proc.devRef .tc main_arg4) = m ((c.tc : Thread nD τ).loc main_arg4) := (HostR.layer1_keep_arg4 (U4 m c)).trans h4_arg4
  have h6_arg5 : U6 m c (Proc.devRef .tc main_arg5) = m ((c.tc : Thread nD τ).loc main_arg5) := (HostR.layer1_keep_arg5 (U4 m c)).trans h4_arg5
  have h6_arg6 : U6 m c (Proc.devRef .tc main_arg6) = m ((c.tc : Thread nD τ).loc main_arg6) := (HostR.layer1_keep_arg6 (U4 m c)).trans h4_arg6
  have h6_arg7 : U6 m c (Proc.devRef .tc main_arg7) = m ((c.tc : Thread nD τ).loc main_arg7) := (HostR.layer1_keep_arg7 (U4 m c)).trans h4_arg7
  -- the second product
  have h7_v48 : U7 m c (Proc.devRef .tc main_v48) = prod (relu (agg (src (m ((c.tc : Thread nD τ).loc main_arg1))) (dst (m ((c.tc : Thread nD τ).loc main_arg1))) (norm (m ((c.tc : Thread nD τ).loc main_arg1))) (prod (m ((c.tc : Thread nD τ).loc main_arg0)) (m ((c.tc : Thread nD τ).loc main_arg2))) (m ((c.tc : Thread nD τ).loc main_arg3)))) (m ((c.tc : Thread nD τ).loc main_arg4)) :=
    (HostR.dot1_out (U6 m c)).trans ((RefProduct.dot_eq _ _).trans (congrArg₂ prod h6_v47 h6_arg4))
  have h7_v3 : U7 m c (Proc.devRef .tc main_v3) = src (m ((c.tc : Thread nD τ).loc main_arg1)) := (HostR.dot1_keep_v3 (U6 m c)).trans h6_v3
  have h7_v6 : U7 m c (Proc.devRef .tc main_v6) = dst (m ((c.tc : Thread nD τ).loc main_arg1)) := (HostR.dot1_keep_v6 (U6 m c)).trans h6_v6
  have h7_v29 : U7 m c (Proc.devRef .tc main_v29) = norm (m ((c.tc : Thread nD τ).loc main_arg1)) := (HostR.dot1_keep_v29 (U6 m c)).trans h6_v29
  have h7_arg5 : U7 m c (Proc.devRef .tc main_arg5) = m ((c.tc : Thread nD τ).loc main_arg5) := (HostR.dot1_keep_arg5 (U6 m c)).trans h6_arg5
  have h7_arg6 : U7 m c (Proc.devRef .tc main_arg6) = m ((c.tc : Thread nD τ).loc main_arg6) := (HostR.dot1_keep_arg6 (U6 m c)).trans h6_arg6
  have h7_arg7 : U7 m c (Proc.devRef .tc main_arg7) = m ((c.tc : Thread nD τ).loc main_arg7) := (HostR.dot1_keep_arg7 (U6 m c)).trans h6_arg7
  -- the second layer's
  have h9_v65 : U9 m c (Proc.devRef .tc main_v65) = relu (agg (src (m ((c.tc : Thread nD τ).loc main_arg1))) (dst (m ((c.tc : Thread nD τ).loc main_arg1))) (norm (m ((c.tc : Thread nD τ).loc main_arg1))) (prod (relu (agg (src (m ((c.tc : Thread nD τ).loc main_arg1))) (dst (m ((c.tc : Thread nD τ).loc main_arg1))) (norm (m ((c.tc : Thread nD τ).loc main_arg1))) (prod (m ((c.tc : Thread nD τ).loc main_arg0)) (m ((c.tc : Thread nD τ).loc main_arg2))) (m ((c.tc : Thread nD τ).loc main_arg3)))) (m ((c.tc : Thread nD τ).loc main_arg4))) (m ((c.tc : Thread nD τ).loc main_arg5))) :=
    (HostR.layer2 (U7 m c)).trans (by rw [h7_v3, h7_v6, h7_v29, h7_v48, h7_arg5])
  have h9_v3 : U9 m c (Proc.devRef .tc main_v3) = src (m ((c.tc : Thread nD τ).loc main_arg1)) := (HostR.layer2_keep_v3 (U7 m c)).trans h7_v3
  have h9_v6 : U9 m c (Proc.devRef .tc main_v6) = dst (m ((c.tc : Thread nD τ).loc main_arg1)) := (HostR.layer2_keep_v6 (U7 m c)).trans h7_v6
  have h9_v29 : U9 m c (Proc.devRef .tc main_v29) = norm (m ((c.tc : Thread nD τ).loc main_arg1)) := (HostR.layer2_keep_v29 (U7 m c)).trans h7_v29
  have h9_arg6 : U9 m c (Proc.devRef .tc main_arg6) = m ((c.tc : Thread nD τ).loc main_arg6) := (HostR.layer2_keep_arg6 (U7 m c)).trans h7_arg6
  have h9_arg7 : U9 m c (Proc.devRef .tc main_arg7) = m ((c.tc : Thread nD τ).loc main_arg7) := (HostR.layer2_keep_arg7 (U7 m c)).trans h7_arg7
  -- the third product
  have h10_v66 : U10 m c (Proc.devRef .tc main_v66) = prod (relu (agg (src (m ((c.tc : Thread nD τ).loc main_arg1))) (dst (m ((c.tc : Thread nD τ).loc main_arg1))) (norm (m ((c.tc : Thread nD τ).loc main_arg1))) (prod (relu (agg (src (m ((c.tc : Thread nD τ).loc main_arg1))) (dst (m ((c.tc : Thread nD τ).loc main_arg1))) (norm (m ((c.tc : Thread nD τ).loc main_arg1))) (prod (m ((c.tc : Thread nD τ).loc main_arg0)) (m ((c.tc : Thread nD τ).loc main_arg2))) (m ((c.tc : Thread nD τ).loc main_arg3)))) (m ((c.tc : Thread nD τ).loc main_arg4))) (m ((c.tc : Thread nD τ).loc main_arg5)))) (m ((c.tc : Thread nD τ).loc main_arg6)) :=
    (HostR.dot2_out (U9 m c)).trans ((RefProduct.dot_eq _ _).trans (congrArg₂ prod h9_v65 h9_arg6))
  have h10_v3 : U10 m c (Proc.devRef .tc main_v3) = src (m ((c.tc : Thread nD τ).loc main_arg1)) := (HostR.dot2_keep_v3 (U9 m c)).trans h9_v3
  have h10_v6 : U10 m c (Proc.devRef .tc main_v6) = dst (m ((c.tc : Thread nD τ).loc main_arg1)) := (HostR.dot2_keep_v6 (U9 m c)).trans h9_v6
  have h10_v29 : U10 m c (Proc.devRef .tc main_v29) = norm (m ((c.tc : Thread nD τ).loc main_arg1)) := (HostR.dot2_keep_v29 (U9 m c)).trans h9_v29
  have h10_arg7 : U10 m c (Proc.devRef .tc main_arg7) = m ((c.tc : Thread nD τ).loc main_arg7) := (HostR.dot2_keep_arg7 (U9 m c)).trans h9_arg7
  -- the third layer's aggregation is the result
  exact (HostR.layer3 (U10 m c)).trans (by rw [h10_v3, h10_v6, h10_v29, h10_v66, h10_arg7]; rfl)

end Cert.Gcn.RefValue

end
-- ==== Proof.lean ====
/-
  Three layers of graph convolution over a self-looped graph: the kernel program against its reference.

  Both programs compute, from the node features `x`, the edge array and three weight/bias pairs,

      h ↦ agg (h · W) b,   three times, with `relu` between the layers,

  where `agg` gathers the source rows, scales each by `1/sqrt(deg src) · 1/sqrt(deg dst)`, scatter-adds them into the
  destination rows and adds the bias (Proof/Spec.lean). Every host operation around the three products is the same
  in both programs. They differ only in how a product `h · W` is taken: the reference by one `dot_general`, the kernel
  by a pipelined region that, for each block of 2000 rows, multiplies the block by the whole weight on the matrix
  unit after a cast to bf16. Over the extended reals the cast is the identity and each entry of either product is
  the same sum `Σ_{k < 256} h[i, k] · W[k, j]`, factors in the same order, so the two results agree entry by entry
  with no appeal to finiteness of the inputs.

  The modules: Spec (the network as one function of the eight arguments), BlockProduct (a region's body at one grid
  point), Region0 – Region2 (a region's output array is the product of the arrays it was entered with), KernelRun
  (the kernel program's run, its result kept), HostK / HostR (what each stretch of host operations computes),
  KernelValue / RefValue (the result buffer is the network of the launch arguments), RefRun and RefProduct (the
  reference's run, and its `dot_general` as the same sum).
-/
import proofs.«148581_j78683800863474_1_alg».proof.Defs
import proofs.«148581_j78683800863474_1_alg».proof.Proof.Gen.Kernel
import proofs.«148581_j78683800863474_1_alg».proof.Proof.Gen.Kernel.Skeleton
import proofs.«148581_j78683800863474_1_alg».proof.Proof.Gen.Kernel.Launch
import proofs.«148581_j78683800863474_1_alg».proof.Proof.Gen.Kernel.Points
import proofs.«148581_j78683800863474_1_alg».proof.Proof.Gen.Kernel.Frame
import proofs.«148581_j78683800863474_1_alg».proof.Proof.Gen.KernelIdeal
import proofs.«148581_j78683800863474_1_alg».proof.Proof.Gen.KernelIdeal.Skeleton
import proofs.«148581_j78683800863474_1_alg».proof.Proof.Gen.KernelIdeal.Launch
import proofs.«148581_j78683800863474_1_alg».proof.Proof.Gen.KernelIdeal.Points
import proofs.«148581_j78683800863474_1_alg».proof.Proof.Gen.KernelIdeal.Frame
import proofs.«148581_j78683800863474_1_alg».proof.Proof.Gen.ReferenceIdeal
import proofs.«148581_j78683800863474_1_alg».proof.Proof.Gen.Pre_finite_inputs
import proofs.«148581_j78683800863474_1_alg».proof.Proof.KernelRun
import proofs.«148581_j78683800863474_1_alg».proof.Proof.KernelValue
import proofs.«148581_j78683800863474_1_alg».proof.Proof.RefRun
import proofs.«148581_j78683800863474_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.Gcn.Ref.run (F := Ideal) m ρ)

/-- The idealization rewrote no operation. -/
theorem preserves : Cert.preserves_Kernel_KernelIdeal := trivial

/-- From memories agreeing on the arguments both programs end with the three-layer network of those arguments in
    their result buffer: the kernel's three regions each leave the product its `dot_general` counterpart computes,
    and everything around the products is the same operations. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Gcn.KernelValue.result m ρ c), (h c).2⟩)
      (Cert.Gcn.KernelRun.run (F := Ideal) m ρ)
  · refine (θ_run Cert.ReferenceIdeal.defs _ _).mono (fun _ h c => ⟨(h c).1.trans ?_, (h c).2⟩)
      (Cert.Gcn.Ref.run (F := Ideal) m' ρ')
    refine (Cert.Gcn.RefValue.result m' c).trans ?_
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
